-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S10000x512 .f32) (main_arg1 : IVec S2x160000 32) (main_arg2 : FVec F S512x512 .f32) (main_arg3 : FVec F S512x256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S1000x512 : Shape := ⟨2, ![1000, 512]⟩
abbrev S170000x512 : Shape := ⟨2, ![170000, 512]⟩
abbrev S10000x256 : Shape := ⟨2, ![10000, 256]⟩
abbrev S1000x256 : Shape := ⟨2, ![1000, 256]⟩
abbrev S170000x256 : Shape := ⟨2, ![170000, 256]⟩

abbrev nBuf : Space → Nat
  | .hbm => 78
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x256, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S170000, .i32⟩
  | .hbm, ⟨27, _⟩ => ⟨S170000, .i1⟩
  | .hbm, ⟨28, _⟩ => ⟨S_, .i32⟩
  | .hbm, ⟨29, _⟩ => ⟨S170000, .i32⟩
  | .hbm, ⟨30, _⟩ => ⟨S170000, .i32⟩
  | .hbm, ⟨31, _⟩ => ⟨S170000, .i32⟩
  | .hbm, ⟨32, _⟩ => ⟨S170000x1, .i32⟩
  | .hbm, ⟨33, _⟩ => ⟨S170000, .f32⟩
  | .hbm, ⟨34, _⟩ => ⟨S_, .i32⟩
  | .hbm, ⟨35, _⟩ => ⟨S170000, .i32⟩
  | .hbm, ⟨36, _⟩ => ⟨S170000, .i1⟩
  | .hbm, ⟨37, _⟩ => ⟨S_, .i32⟩
  | .hbm, ⟨38, _⟩ => ⟨S170000, .i32⟩
  | .hbm, ⟨39, _⟩ => ⟨S170000, .i32⟩
  | .hbm, ⟨40, _⟩ => ⟨S170000, .i32⟩
  | .hbm, ⟨41, _⟩ => ⟨S170000x1, .i32⟩
  | .hbm, ⟨42, _⟩ => ⟨S170000, .f32⟩
  | .hbm, ⟨43, _⟩ => ⟨S170000, .f32⟩
  | .hbm, ⟨44, _⟩ => ⟨S10000x512, .f32⟩
  | .hbm, ⟨45, _⟩ => ⟨S170000x1, .f32⟩
  | .hbm, ⟨46, _⟩ => ⟨S_, .i32⟩
  | .hbm, ⟨47, _⟩ => ⟨S170000, .i32⟩
  | .hbm, ⟨48, _⟩ => ⟨S170000, .i1⟩
  | .hbm, ⟨49, _⟩ => ⟨S_, .i32⟩
  | .hbm, ⟨50, _⟩ => ⟨S170000, .i32⟩
  | .hbm, ⟨51, _⟩ => ⟨S170000, .i32⟩
  | .hbm, ⟨52, _⟩ => ⟨S170000, .i32⟩
  | .hbm, ⟨53, _⟩ => ⟨S170000x1, .i32⟩
  | .hbm, ⟨54, _⟩ => ⟨S170000x512, .f32⟩
  | .hbm, ⟨55, _⟩ => ⟨S170000x512, .f32⟩
  | .hbm, ⟨56, _⟩ => ⟨S170000x512, .f32⟩
  | .hbm, ⟨57, _⟩ => ⟨S_, .f32⟩
  | .hbm, ⟨58, _⟩ => ⟨S10000x512, .f32⟩
  | .hbm, ⟨59, _⟩ => ⟨S170000x1, .i32⟩
  | .hbm, ⟨60, _⟩ => ⟨S10000x512, .f32⟩
  | .hbm, ⟨61, _⟩ => ⟨S10000x256, .f32⟩
  | .hbm, ⟨62, _⟩ => ⟨S170000x1, .f32⟩
  | .hbm, ⟨63, _⟩ => ⟨S_, .i32⟩
  | .hbm, ⟨64, _⟩ => ⟨S170000, .i32⟩
  | .hbm, ⟨65, _⟩ => ⟨S170000, .i1⟩
  | .hbm, ⟨66, _⟩ => ⟨S_, .i32⟩
  | .hbm, ⟨67, _⟩ => ⟨S170000, .i32⟩
  | .hbm, ⟨68, _⟩ => ⟨S170000, .i32⟩
  | .hbm, ⟨69, _⟩ => ⟨S170000, .i32⟩
  | .hbm, ⟨70, _⟩ => ⟨S170000x1, .i32⟩
  | .hbm, ⟨71, _⟩ => ⟨S170000x256, .f32⟩
  | .hbm, ⟨72, _⟩ => ⟨S170000x256, .f32⟩
  | .hbm, ⟨73, _⟩ => ⟨S170000x256, .f32⟩
  | .hbm, ⟨74, _⟩ => ⟨S_, .f32⟩
  | .hbm, ⟨75, _⟩ => ⟨S10000x256, .f32⟩
  | .hbm, ⟨76, _⟩ => ⟨S170000x1, .i32⟩
  | .hbm, ⟨77, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S1000x512_S512x512_S1000x512_1_0_0_1_n_n_wf : DotDims.WF S1000x512 S512x512 S1000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S1000x512_S512x256_S1000x256_1_0_0_1_n_n_wf : DotDims.WF S1000x512 S512x256 S1000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S10000x256 : Shape := ⟨2, ![10000, 256]⟩
abbrev S170000x256 : Shape := ⟨2, ![170000, 256]⟩

abbrev nBuf : Space → Nat
  | .hbm => 112
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x256, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S10000x512, .f32⟩
  | .hbm, ⟨12, _⟩ => ⟨S_, .f32⟩
  | .hbm, ⟨13, _⟩ => ⟨S170000, .f32⟩
  | .hbm, ⟨14, _⟩ => ⟨S_, .f32⟩
  | .hbm, ⟨15, _⟩ => ⟨S10000, .f32⟩
  | .hbm, ⟨16, _⟩ => ⟨S170000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .i1⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .i32⟩
  | .hbm, ⟨27, _⟩ => ⟨S170000, .i32⟩
  | .hbm, ⟨28, _⟩ => ⟨S170000, .i1⟩
  | .hbm, ⟨29, _⟩ => ⟨S_, .i32⟩
  | .hbm, ⟨30, _⟩ => ⟨S170000, .i32⟩
  | .hbm, ⟨31, _⟩ => ⟨S170000, .i32⟩
  | .hbm, ⟨32, _⟩ => ⟨S170000, .i32⟩
  | .hbm, ⟨33, _⟩ => ⟨S170000x1, .i32⟩
  | .hbm, ⟨34, _⟩ => ⟨S170000, .f32⟩
  | .hbm, ⟨35, _⟩ => ⟨S_, .i32⟩
  | .hbm, ⟨36, _⟩ => ⟨S170000, .i32⟩
  | .hbm, ⟨37, _⟩ => ⟨S170000, .i1⟩
  | .hbm, ⟨38, _⟩ => ⟨S_, .i32⟩
  | .hbm, ⟨39, _⟩ => ⟨S170000, .i32⟩
  | .hbm, ⟨40, _⟩ => ⟨S170000, .i32⟩
  | .hbm, ⟨41, _⟩ => ⟨S170000, .i32⟩
  | .hbm, ⟨42, _⟩ => ⟨S170000x1, .i32⟩
  | .hbm, ⟨43, _⟩ => ⟨S170000, .f32⟩
  | .hbm, ⟨44, _⟩ => ⟨S170000, .f32⟩
  | .hbm, ⟨45, _⟩ => ⟨S170000x1, .f32⟩
  | .hbm, ⟨46, _⟩ => ⟨S_, .i32⟩
  | .hbm, ⟨47, _⟩ => ⟨S170000, .i32⟩
  | .hbm, ⟨48, _⟩ => ⟨S170000, .i1⟩
  | .hbm, ⟨49, _⟩ => ⟨S_, .i32⟩
  | .hbm, ⟨50, _⟩ => ⟨S170000, .i32⟩
  | .hbm, ⟨51, _⟩ => ⟨S170000, .i32⟩
  | .hbm, ⟨52, _⟩ => ⟨S170000, .i32⟩
  | .hbm, ⟨53, _⟩ => ⟨S170000x1, .i32⟩
  | .hbm, ⟨54, _⟩ => ⟨S170000x512, .f32⟩
  | .hbm, ⟨55, _⟩ => ⟨S170000x512, .f32⟩
  | .hbm, ⟨56, _⟩ => ⟨S170000x512, .f32⟩
  | .hbm, ⟨57, _⟩ => ⟨S_, .f32⟩
  | .hbm, ⟨58, _⟩ => ⟨S10000x512, .f32⟩
  | .hbm, ⟨59, _⟩ => ⟨S170000x1, .i32⟩
  | .hbm, ⟨60, _⟩ => ⟨S10000x512, .f32⟩
  | .hbm, ⟨61, _⟩ => ⟨S10000x512, .f32⟩
  | .hbm, ⟨62, _⟩ => ⟨S10000x256, .f32⟩
  | .hbm, ⟨63, _⟩ => ⟨S_, .f32⟩
  | .hbm, ⟨64, _⟩ => ⟨S170000, .f32⟩
  | .hbm, ⟨65, _⟩ => ⟨S_, .f32⟩
  | .hbm, ⟨66, _⟩ => ⟨S10000, .f32⟩
  | .hbm, ⟨67, _⟩ => ⟨S170000x1, .i32⟩
  | .hbm, ⟨68, _⟩ => ⟨S10000, .f32⟩
  | .hbm, ⟨69, _⟩ => ⟨S_, .f32⟩
  | .hbm, ⟨70, _⟩ => ⟨S10000, .f32⟩
  | .hbm, ⟨71, _⟩ => ⟨S10000, .i1⟩
  | .hbm, ⟨72, _⟩ => ⟨S10000, .f32⟩
  | .hbm, ⟨73, _⟩ => ⟨S_, .f32⟩
  | .hbm, ⟨74, _⟩ => ⟨S_, .f32⟩
  | .hbm, ⟨75, _⟩ => ⟨S10000, .f32⟩
  | .hbm, ⟨76, _⟩ => ⟨S10000, .f32⟩
  | .hbm, ⟨77, _⟩ => ⟨S_, .i32⟩
  | .hbm, ⟨78, _⟩ => ⟨S170000, .i32⟩
  | .hbm, ⟨79, _⟩ => ⟨S170000, .i1⟩
  | .hbm, ⟨80, _⟩ => ⟨S_, .i32⟩
  | .hbm, ⟨81, _⟩ => ⟨S170000, .i32⟩
  | .hbm, ⟨82, _⟩ => ⟨S170000, .i32⟩
  | .hbm, ⟨83, _⟩ => ⟨S170000, .i32⟩
  | .hbm, ⟨84, _⟩ => ⟨S170000x1, .i32⟩
  | .hbm, ⟨85, _⟩ => ⟨S170000, .f32⟩
  | .hbm, ⟨86, _⟩ => ⟨S_, .i32⟩
  | .hbm, ⟨87, _⟩ => ⟨S170000, .i32⟩
  | .hbm, ⟨88, _⟩ => ⟨S170000, .i1⟩
  | .hbm, ⟨89, _⟩ => ⟨S_, .i32⟩
  | .hbm, ⟨90, _⟩ => ⟨S170000, .i32⟩
  | .hbm, ⟨91, _⟩ => ⟨S170000, .i32⟩
  | .hbm, ⟨92, _⟩ => ⟨S170000, .i32⟩
  | .hbm, ⟨93, _⟩ => ⟨S170000x1, .i32⟩
  | .hbm, ⟨94, _⟩ => ⟨S170000, .f32⟩
  | .hbm, ⟨95, _⟩ => ⟨S170000, .f32⟩
  | .hbm, ⟨96, _⟩ => ⟨S170000x1, .f32⟩
  | .hbm, ⟨97, _⟩ => ⟨S_, .i32⟩
  | .hbm, ⟨98, _⟩ => ⟨S170000, .i32⟩
  | .hbm, ⟨99, _⟩ => ⟨S170000, .i1⟩
  | .hbm, ⟨100, _⟩ => ⟨S_, .i32⟩
  | .hbm, ⟨101, _⟩ => ⟨S170000, .i32⟩
  | .hbm, ⟨102, _⟩ => ⟨S170000, .i32⟩
  | .hbm, ⟨103, _⟩ => ⟨S170000, .i32⟩
  | .hbm, ⟨104, _⟩ => ⟨S170000x1, .i32⟩
  | .hbm, ⟨105, _⟩ => ⟨S170000x256, .f32⟩
  | .hbm, ⟨106, _⟩ => ⟨S170000x256, .f32⟩
  | .hbm, ⟨107, _⟩ => ⟨S170000x256, .f32⟩
  | .hbm, ⟨108, _⟩ => ⟨S_, .f32⟩
  | .hbm, ⟨109, _⟩ => ⟨S10000x256, .f32⟩
  | .hbm, ⟨110, _⟩ => ⟨S170000x1, .i32⟩
  | .hbm, ⟨111, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_call1_v0 : Ref sig .tc := ⟨.hbm, 74, rfl⟩
abbrev main_call1_v1 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x256_S10000x256_1_0_0_1_n_n_wf : DotDims.WF S10000x512 S512x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«172877_j63187558859328_2_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.Blocks.lean ====
/-
  What each of the kernel's two regions leaves in its output array, as one function of the arrays it finds on entry.

  Both regions walk the rows of their left operand in ten blocks of 1000 rows: at grid point `t` the body loads rows
  `1000·t … 1000·t + 999` of the left array (all 512 columns), the whole right array, and stores rows
  `1000·t … 1000·t + 999` of the result. A row of a product depends only on the same row of the left factor, so the block the
  body computes from the row block IS the same rows of the whole product, and the ten blocks cover the 10000 rows.

    region 0:  out = product L R                 (L the left array, R the right one, as the region finds them)
    region 1:  out = product (square L) R        (the body squares its row block first)
-/
import proofs.«172877_j63187558859328_2_alg».proof.Proof.Gen.KernelIdeal.Frame
import proofs.«172877_j63187558859328_2_alg».proof.Proof.LibProduct
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.LibProduct

variable (V : (c : Dev nD) → (b : Ref sig .tc) → Buf (Elt Ideal) ((c : Thread nD τ).loc b))

theorem hz : (![0, 0] : Fin 2 → Nat) = fun _ => 0 := funext fun a => by fin_cases a <;> rfl

/-! ## The bodies' arithmetic -/

/-- The first body's stored value is the product of its two loaded blocks. -/
theorem pay0_eq (x0 : FVec Ideal S1000x512 .f32) (x1 : FVec Ideal S512x512 .f32) :
    k0_pay1 (F := Ideal) x0 x1 = product x0 x1 := by
  unfold k0_pay1
  exact matmul_rounded_eq Facts₀.dot_S1000x512_S512x512_S1000x512_1_0_0_1_n_n_wf none x0 x1 Facts₀.bitsLt_bf16_f32 Facts₀.bitsLt_bf16_f32

/-- The second body's stored value is the product of its first block squared with its second block. -/
theorem pay1_eq (x0 : FVec Ideal S1000x512 .f32) (x1 : FVec Ideal S512x256 .f32) :
    k1_pay1 (F := Ideal) x0 x1 = product (square x0) x1 := by
  unfold k1_pay1
  simp only [shapeCast_self]
  exact matmul_rounded_eq Facts₀.dot_S1000x512_S512x256_S1000x256_1_0_0_1_n_n_wf none (square x0) x1 Facts₀.bitsLt_bf16_f32 Facts₀.bitsLt_bf16_f32

/-! ## Region 0: the first product -/

/-- The printed index maps over the grid: the left operand's and the result's blocks move together down the rows, one
    block per point; the right operand is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the region finds. -/
theorem flushed0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  obtain ⟨e0, e1, e2, e3, e4, e5⟩ := idx0 t
  funext j
  show k0_pay1 (F := Ideal) (iblk0 V c 0 t) (iblk0 V c 1 t) j = product (V c main_arg0) (V c main_arg2) (((cfg0.win 2).blk t).view.emb j)
  refine (congrFun (pay0_eq (iblk0 V c 0 t) (iblk0 V c 1 t)) j).trans ?_
  refine product_congr (iblk0 V c 0 t) (iblk0 V c 1 t) (V c main_arg0) (V c main_arg2) j (((cfg0.win 2).blk t).view.emb j) (fun e => ?_) (fun e => ?_)
  · show V c main_arg0 (((cfg0.win 0).blk t).view.emb (ix2 (j 0) e)) = _
    refine congrArg (V c main_arg0) (funext fun a => Fin.ext ?_)
    match a with
    | ⟨0, _⟩ => show win0_0.index t 0 * 1000 + 1 * (j 0).val = win0_2.index t 0 * 1000 + 1 * (j 0).val; omega
    | ⟨1, _⟩ => show win0_0.index t 1 * 512 + 1 * e.val = e.val; omega
  · show V c main_arg2 (((cfg0.win 1).blk t).view.emb (ix2 e (j 1))) = _
    refine congrArg (V c main_arg2) (funext fun a => Fin.ext ?_)
    match a with
    | ⟨0, _⟩ => show win0_1.index t 0 * 512 + 1 * e.val = e.val; omega
    | ⟨1, _⟩ => show win0_1.index t 1 * 512 + 1 * (j 1).val = win0_2.index t 1 * 512 + 1 * (j 1).val; omega

/-- An index of the result array is in point `t`'s block iff each coordinate is in the block's range on its axis. -/
theorem mem_blk0 (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v30).slice (win0_2.rect t)).set ↔ _
  rw [View.set_slice_whole, Rect.mem_set_unit]
  exact Iff.rfl

/-- Row `r` is in the block of point `r / 1000`: the ten blocks cover the array. -/
theorem cover0 (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  refine ⟨⟨(i 0).val / 1000, by show (i 0).val / 1000 < 10; omega⟩, flush0_2 _, ?_⟩
  rw [mem_blk0]
  obtain ⟨-, -, -, -, e4, e5⟩ := idx0 ⟨(i 0).val / 1000, by show (i 0).val / 1000 < 10; omega⟩
  have e4' : win0_2.index ⟨(i 0).val / 1000, by show (i 0).val / 1000 < 10; omega⟩ (0 : Fin 2) = (i 0).val / 1000 := e4
  intro a
  match a with
  | ⟨0, _⟩ =>
    show win0_2.index _ (0 : Fin 2) * 1000 ≤ (i 0).val ∧ (i 0).val < win0_2.index _ (0 : Fin 2) * 1000 + 1000
    rw [e4']; omega
  | ⟨1, _⟩ =>
    show win0_2.index _ (1 : Fin 2) * 512 ≤ (i 1).val ∧ (i 1).val < win0_2.index _ (1 : Fin 2) * 512 + 512
    rw [e5]; omega

/-- Region 0 leaves the product of the two arrays it finds in its result array. -/
theorem arr0 (c : Dev nD) : (dat0 V c).arrAt 2 cfg0.N = product (V c main_arg0) (V c main_arg2) :=
  (dat0 V c).arrAt_eq_of_cover 2 (product (V c main_arg0) (V c main_arg2)) (fun t _ => flushed0 V c t) cover0

/-! ## Region 1: the square and the second product -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the left array squared with the right array. -/
theorem flushed1 (c : Dev nD) (t : Fin cfg1.N) :
    (dat1 V c).flushed 2 t = ((cfg1.win 2).blk t).view.read (Elt Ideal) (product (square (V c main_v43)) (V c main_arg3)) := by
  show (cfg1.win 2).cut (grid1.coords t) ((dat1 V c).after 2 t) = _
  rw [after1_2]
  unfold out1_2
  rw [View.canon_unit_zero hz]
  simp only [View.ld_unit_zero (S := S1000x512) hz, View.ld_unit_zero (S := S512x256) hz]
  obtain ⟨e0, e1, e2, e3, e4, e5⟩ := idx1 t
  funext j
  show k1_pay1 (F := Ideal) (iblk1 V c 0 t) (iblk1 V c 1 t) j = product (square (V c main_v43)) (V c main_arg3) (((cfg1.win 2).blk t).view.emb j)
  refine (congrFun (pay1_eq (iblk1 V c 0 t) (iblk1 V c 1 t)) j).trans ?_
  refine product_square_congr (iblk1 V c 0 t) (iblk1 V c 1 t) (V c main_v43) (V c main_arg3) j (((cfg1.win 2).blk t).view.emb j) (fun e => ?_) (fun e => ?_)
  · show V c main_v43 (((cfg1.win 0).blk t).view.emb (ix2 (j 0) e)) = _
    refine congrArg (V c main_v43) (funext fun a => Fin.ext ?_)
    match a with
    | ⟨0, _⟩ => show win1_0.index t 0 * 1000 + 1 * (j 0).val = win1_2.index t 0 * 1000 + 1 * (j 0).val; omega
    | ⟨1, _⟩ => show win1_0.index t 1 * 512 + 1 * e.val = e.val; omega
  · show V c main_arg3 (((cfg1.win 1).blk t).view.emb (ix2 e (j 1))) = _
    refine congrArg (V c main_arg3) (funext fun a => Fin.ext ?_)
    match a with
    | ⟨0, _⟩ => show win1_1.index t 0 * 512 + 1 * e.val = e.val; omega
    | ⟨1, _⟩ => show win1_1.index t 1 * 256 + 1 * (j 1).val = win1_2.index t 1 * 256 + 1 * (j 1).val; omega

theorem mem_blk1 (t : Fin cfg1.N) (i : S10000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v44).slice (win1_2.rect t)).set ↔ _
  rw [View.set_slice_whole, Rect.mem_set_unit]
  exact Iff.rfl

theorem cover1 (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  refine ⟨⟨(i 0).val / 1000, by show (i 0).val / 1000 < 10; omega⟩, flush1_2 _, ?_⟩
  rw [mem_blk1]
  obtain ⟨-, -, -, -, e4, e5⟩ := idx1 ⟨(i 0).val / 1000, by show (i 0).val / 1000 < 10; omega⟩
  have e4' : win1_2.index ⟨(i 0).val / 1000, by show (i 0).val / 1000 < 10; omega⟩ (0 : Fin 2) = (i 0).val / 1000 := e4
  intro a
  match a with
  | ⟨0, _⟩ =>
    show win1_2.index _ (0 : Fin 2) * 1000 ≤ (i 0).val ∧ (i 0).val < win1_2.index _ (0 : Fin 2) * 1000 + 1000
    rw [e4']; omega
  | ⟨1, _⟩ =>
    show win1_2.index _ (1 : Fin 2) * 256 ≤ (i 1).val ∧ (i 1).val < win1_2.index _ (1 : Fin 2) * 256 + 256
    rw [e5]; omega

/-- Region 1 leaves, in its result array, the product of the left array it finds, squared, with the right array. -/
theorem arr1 (c : Dev nD) : (dat1 V c).arrAt 2 cfg1.N = product (square (V c main_v43)) (V c main_arg3) :=
  (dat1 V c).arrAt_eq_of_cover 2 (product (square (V c main_v43)) (V c main_arg3)) (fun t _ => flushed1 V c t) cover1

end Cert.KernelIdeal.Blocks

end
-- ==== Proof.Layer.lean ====
/-
  The graph layer's host side as functions of its operands, for any float instance and any dimension records.

  The graph has 10000 nodes and 160000 edges; every node is also joined to itself, so 170000 edges are processed. With
  `s`, `t : 170000 → ℤ` the edges' source and target nodes:

    endpoints     one row of the [2, 160000] edge list followed by 0 … 9999 (the self loops);
    wrapped       a negative index counts from the end: `i < 0 ↦ i + 10000`;
    degree        `deg v = Σ_{edges into v} 1`, a scatter-add of ones at the targets into zeros;
    invSqrtDegree `deg^{-1/2}` where `deg > 0`, zero elsewhere;
    edgeWeights   `w e = invSqrtDegree (s e) · invSqrtDegree (t e)`, by two gathers;
    aggregate     `(A · y) v = Σ_{edges e into v} w e · y (s e)`: the rows of `y` gathered at the sources, each scaled by its
                  edge's weight, scatter-added at the targets into zeros.

  Nothing is proved about these functions: the two programs apply the same ones to operands that are shown equal, so they
  are never opened. They are stated over the dimension records and the shape facts as parameters, so that each program
  supplies its own.
-/
import Idealize.ShloMosaic.PureOps.Vector
import Idealize.ShloMosaic.PureOps.Contract
import Idealize.ShloMosaic.PureOps.ShapeOps

noncomputable section

namespace Cert.Gcn

open Idealize.ShloMosaic

variable {F : FTy → Type} [FloatOps F]

abbrev Scal : Shape := ⟨0, ![]⟩
abbrev Nodes : Shape := ⟨1, ![10000]⟩
abbrev Edges : Shape := ⟨1, ![170000]⟩
abbrev EdgeCol : Shape := ⟨2, ![170000, 1]⟩
abbrev Listed : Shape := ⟨1, ![160000]⟩
abbrev ListedRow : Shape := ⟨2, ![1, 160000]⟩
abbrev EdgeList : Shape := ⟨2, ![2, 160000]⟩
abbrev NodeRows (d : ℕ) : Shape := ⟨2, ![10000, d]⟩
abbrev EdgeRows (d : ℕ) : Shape := ⟨2, ![170000, d]⟩

/-- One row of the edge list (the row the offset `off` selects), then the nodes `0 … 9999` themselves. -/
def endpoints (off : Fin 2 → ℕ) (hs : EdgeList.Slices off ListedRow) (hc : ListedRow.ShapeCasts Listed)
    (hcat : Shape.Concatenates [Listed, Nodes] Edges 0) (e : IVec EdgeList 32) : IVec Edges 32 :=
  concatenate Edges 0 [⟨Listed, shapeCast Listed (extractStridedSlice ListedRow off e hs) hc⟩, ⟨Nodes, iotaInDim Nodes 32 0⟩] hcat

/-- A negative node index counts from the end. -/
def wrapped (he : Scal.BroadcastsInDim Edges (![] : Fin 0 → Fin Edges.rank)) (s : IVec Edges 32) : IVec Edges 32 :=
  select (cmpi .slt s (broadcastInDim Edges ![] he (constantI Scal 32 0#32)))
    (addi s (broadcastInDim Edges ![] he (constantI Scal 32 10000#32))) s

/-- The number of edges into every node. -/
def degree (sc : ScatterDims Nodes EdgeCol Edges) (hn : Scal.BroadcastsInDim Nodes (![] : Fin 0 → Fin Nodes.rank))
    (he : Scal.BroadcastsInDim Edges (![] : Fin 0 → Fin Edges.rank)) (hcol : Edges.BroadcastsInDim EdgeCol (![0] : Fin 1 → Fin EdgeCol.rank))
    (t : IVec Edges 32) : FVec F Nodes .f32 :=
  Host.scatterAdd sc (broadcastInDim Nodes ![] hn (constant Scal .f32 0x00000000#32)) (broadcastInDim EdgeCol ![0] hcol t)
    (broadcastInDim Edges ![] he (constant Scal .f32 0x3F800000#32))

/-- The inverse square root of the degree where it is positive, zero elsewhere. -/
def invSqrtDegree (hn : Scal.BroadcastsInDim Nodes (![] : Fin 0 → Fin Nodes.rank)) (deg : FVec F Nodes .f32) : FVec F Nodes .f32 :=
  select (cmpf .ogt deg (broadcastInDim Nodes ![] hn (constant Scal .f32 0x00000000#32))) (Host.rsqrt deg)
    (broadcastInDim Nodes ![] hn (id (constant Scal .f32 0x00000000#32)))

/-- Every edge's weight: the product of the inverse square roots of the degrees of its two ends. -/
def edgeWeights (g : GatherDims Nodes EdgeCol Edges) (sc : ScatterDims Nodes EdgeCol Edges)
    (hn : Scal.BroadcastsInDim Nodes (![] : Fin 0 → Fin Nodes.rank))
    (he : Scal.BroadcastsInDim Edges (![] : Fin 0 → Fin Edges.rank)) (hcol : Edges.BroadcastsInDim EdgeCol (![0] : Fin 1 → Fin EdgeCol.rank))
    (s t : IVec Edges 32) : FVec F Edges .f32 :=
  mulf (Host.gather g (invSqrtDegree hn (degree (F := F) sc hn he hcol t)) (broadcastInDim EdgeCol ![0] hcol (wrapped he s)))
    (Host.gather g (invSqrtDegree hn (degree (F := F) sc hn he hcol t)) (broadcastInDim EdgeCol ![0] hcol (wrapped he t)))

/-- The weighted sum, at every node, of the rows of `y` at the sources of the edges into it. -/
def aggregate {d : ℕ} (g : GatherDims (NodeRows d) EdgeCol (EdgeRows d)) (sc : ScatterDims (NodeRows d) EdgeCol (EdgeRows d))
    (hz : Scal.BroadcastsInDim (NodeRows d) (![] : Fin 0 → Fin (NodeRows d).rank))
    (he : Scal.BroadcastsInDim Edges (![] : Fin 0 → Fin Edges.rank)) (hcol : Edges.BroadcastsInDim EdgeCol (![0] : Fin 1 → Fin EdgeCol.rank))
    (hrow : EdgeCol.BroadcastsInDim (EdgeRows d) (![0, 1] : Fin 2 → Fin (EdgeRows d).rank))
    (w : FVec F Edges .f32) (s t : IVec Edges 32) (y : FVec F (NodeRows d) .f32) : FVec F (NodeRows d) .f32 :=
  Host.scatterAdd sc (broadcastInDim (NodeRows d) ![] hz (constant Scal .f32 0x00000000#32)) (broadcastInDim EdgeCol ![0] hcol t)
    (mulf (broadcastInDim (EdgeRows d) ![0, 1] hrow (broadcastInDim EdgeCol ![0] hcol w))
      (Host.gather g y (broadcastInDim EdgeCol ![0] hcol (wrapped he s))))

end Cert.Gcn

end
-- ==== Proof.KernelHost.lean ====
/-
  The kernel program's host operations, stretch by stretch, as the layer's functions of whatever contents a stretch finds.

  Before the first region, in three stretches: the source and target index vectors and the degree with its mask and inverse
  square root; the called function choosing between that inverse square root and zero; the two gathers and the product that
  make the edge weights. Between the regions: the first aggregation, of the first region's product. After the second region:
  the second aggregation, the result. Each stretch leaves every buffer it does not write as it found it.
-/
import proofs.«172877_j63187558859328_2_alg».proof.Proof.Gen.KernelIdeal.Launch
import proofs.«172877_j63187558859328_2_alg».proof.Proof.Layer
import Idealize.ShloMosaic.PureOps.Ideal
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen Cert.Gcn

/-- The edges' source nodes, from the edge list. -/
abbrev srcOf (e : IVec EdgeList 32) : IVec Edges 32 :=
  endpoints ![0, 0] Facts₀.slices_S2x160000_S1x160000_0_0 Facts₀.shapeCasts_S1x160000_S160000 Facts₀.concatenates_S160000_S10000_S170000_d0 e
/-- The edges' target nodes. -/
abbrev tgtOf (e : IVec EdgeList 32) : IVec Edges 32 :=
  endpoints ![1, 0] Facts₀.slices_S2x160000_S1x160000_1_0 Facts₀.shapeCasts_S1x160000_S160000 Facts₀.concatenates_S160000_S10000_S170000_d0 e
/-- The edge weights. -/
abbrev weightsOf (s t : IVec Edges 32) : FVec Ideal Edges .f32 :=
  edgeWeights (F := Ideal) gather_S10000_S170000x1_S170000_n_0_n_n_0_1_1 scatter_S10000_S170000x1_S170000_n_0_0_1
    Facts₀.bcast_S_S10000 Facts₀.bcast_S_S170000 Facts₀.bcast_S170000_S170000x1_0 s t
/-- The aggregation of 512-wide rows. -/
abbrev agg512 (w : FVec Ideal Edges .f32) (s t : IVec Edges 32) (y : FVec Ideal (NodeRows 512) .f32) : FVec Ideal (NodeRows 512) .f32 :=
  aggregate (F := Ideal) gather_S10000x512_S170000x1_S170000x512_1_0_n_n_0_1_1512 scatter_S10000x512_S170000x1_S170000x512_1_0_0_1
    Facts₀.bcast_S_S10000x512 Facts₀.bcast_S_S170000 Facts₀.bcast_S170000_S170000x1_0 Facts₀.bcast_S170000x1_S170000x512_0_1 w s t y
/-- The aggregation of 256-wide rows. -/
abbrev agg256 (w : FVec Ideal Edges .f32) (s t : IVec Edges 32) (y : FVec Ideal (NodeRows 256) .f32) : FVec Ideal (NodeRows 256) .f32 :=
  aggregate (F := Ideal) gather_S10000x256_S170000x1_S170000x256_1_0_n_n_0_1_1256 scatter_S10000x256_S170000x1_S170000x256_1_0_0_1
    Facts₀.bcast_S_S10000x256 Facts₀.bcast_S_S170000 Facts₀.bcast_S170000_S170000x1_0 Facts₀.bcast_S170000x1_S170000x256_0_1 w s t y

variable (U : Valuation τ sig (Elt Ideal))

/-! ## Before the first region: the index vectors and the degree -/
set_option maxHeartbeats 8000000 in
theorem p0_src : after (hostOps0 (F := Ideal)) U (Proc.devRef .tc main_v3)
    = srcOf (U (Proc.devRef .tc main_arg1)) := by
  dsimp only [hostOps0]
  after_results_simp
  try (rw [reshape_result]; try after_results_simp)
  all_goals rfl

set_option maxHeartbeats 8000000 in
theorem p0_tgt : after (hostOps0 (F := Ideal)) U (Proc.devRef .tc main_v6)
    = tgtOf (U (Proc.devRef .tc main_arg1)) := by
  dsimp only [hostOps0]
  after_results_simp
  try (rw [reshape_result]; try after_results_simp)
  all_goals rfl

set_option maxHeartbeats 8000000 in
theorem p0_pos : after (hostOps0 (F := Ideal)) U (Proc.devRef .tc main_v12)
    = cmpf .ogt (degree (F := Ideal) scatter_S10000_S170000x1_S170000_n_0_0_1 Facts₀.bcast_S_S10000 Facts₀.bcast_S_S170000 Facts₀.bcast_S170000_S170000x1_0 (tgtOf (U (Proc.devRef .tc main_arg1)))) (broadcastInDim S10000 ![] Facts₀.bcast_S_S10000 (constant (F := Ideal) S_ .f32 0x00000000#32)) := by
  dsimp only [hostOps0]
  after_results_simp
  try (rw [reshape_result]; try after_results_simp)
  all_goals rfl

set_option maxHeartbeats 8000000 in
theorem p0_rsq : after (hostOps0 (F := Ideal)) U (Proc.devRef .tc main_v13)
    = Host.rsqrt (degree (F := Ideal) scatter_S10000_S170000x1_S170000_n_0_0_1 Facts₀.bcast_S_S10000 Facts₀.bcast_S_S170000 Facts₀.bcast_S170000_S170000x1_0 (tgtOf (U (Proc.devRef .tc main_arg1)))) := by
  dsimp only [hostOps0]
  after_results_simp
  try (rw [reshape_result]; try after_results_simp)
  all_goals rfl

set_option maxHeartbeats 8000000 in
theorem p0_zero : after (hostOps0 (F := Ideal)) U (Proc.devRef .tc main_cst_2)
    = constant (F := Ideal) S_ .f32 0x00000000#32 := by
  dsimp only [hostOps0]
  after_results_simp
  all_goals rfl

set_option maxHeartbeats 4000000 in
theorem p0_arg0 : after (hostOps0 (F := Ideal)) U (Proc.devRef .tc main_arg0)
    = U (Proc.devRef .tc main_arg0) := by
  dsimp only [hostOps0]
  after_results_simp
  all_goals rfl

set_option maxHeartbeats 4000000 in
theorem p0_arg2 : after (hostOps0 (F := Ideal)) U (Proc.devRef .tc main_arg2)
    = U (Proc.devRef .tc main_arg2) := by
  dsimp only [hostOps0]
  after_results_simp
  all_goals rfl

set_option maxHeartbeats 4000000 in
theorem p0_arg3 : after (hostOps0 (F := Ideal)) U (Proc.devRef .tc main_arg3)
    = U (Proc.devRef .tc main_arg3) := by
  dsimp only [hostOps0]
  after_results_simp
  all_goals rfl

/-! ## The called function: the inverse square root where the degree is positive, zero elsewhere -/
set_option maxHeartbeats 8000000 in
theorem p1_inv : after (hostOps0_1 (F := Ideal)) U (Proc.devRef .tc main_v14)
    = select (U (Proc.devRef .tc main_v12)) (U (Proc.devRef .tc main_v13)) (broadcastInDim S10000 ![] Facts₀.bcast_S_S10000 (id (U (Proc.devRef .tc main_cst_2)))) := by
  dsimp only [hostOps0_1]
  after_results_simp
  all_goals rfl

set_option maxHeartbeats 4000000 in
theorem p1_src : after (hostOps0_1 (F := Ideal)) U (Proc.devRef .tc main_v3)
    = U (Proc.devRef .tc main_v3) := by
  dsimp only [hostOps0_1]
  after_results_simp
  all_goals rfl

set_option maxHeartbeats 4000000 in
theorem p1_tgt : after (hostOps0_1 (F := Ideal)) U (Proc.devRef .tc main_v6)
    = U (Proc.devRef .tc main_v6) := by
  dsimp only [hostOps0_1]
  after_results_simp
  all_goals rfl

set_option maxHeartbeats 4000000 in
theorem p1_arg0 : after (hostOps0_1 (F := Ideal)) U (Proc.devRef .tc main_arg0)
    = U (Proc.devRef .tc main_arg0) := by
  dsimp only [hostOps0_1]
  after_results_simp
  all_goals rfl

set_option maxHeartbeats 4000000 in
theorem p1_arg2 : after (hostOps0_1 (F := Ideal)) U (Proc.devRef .tc main_arg2)
    = U (Proc.devRef .tc main_arg2) := by
  dsimp only [hostOps0_1]
  after_results_simp
  all_goals rfl

set_option maxHeartbeats 4000000 in
theorem p1_arg3 : after (hostOps0_1 (F := Ideal)) U (Proc.devRef .tc main_arg3)
    = U (Proc.devRef .tc main_arg3) := by
  dsimp only [hostOps0_1]
  after_results_simp
  all_goals rfl

/-! ## The edge weights -/
set_option maxHeartbeats 8000000 in
theorem p2_w : after (hostOps0_2 (F := Ideal)) U (Proc.devRef .tc main_v29)
    = mulf (F := Ideal) (s := S170000) (φ := .f32) (Host.gather gather_S10000_S170000x1_S170000_n_0_n_n_0_1_1 (U (Proc.devRef .tc main_v14)) (broadcastInDim S170000x1 ![0] Facts₀.bcast_S170000_S170000x1_0 (wrapped Facts₀.bcast_S_S170000 (U (Proc.devRef .tc main_v3))))) (Host.gather gather_S10000_S170000x1_S170000_n_0_n_n_0_1_1 (U (Proc.devRef .tc main_v14)) (broadcastInDim S170000x1 ![0] Facts₀.bcast_S170000_S170000x1_0 (wrapped Facts₀.bcast_S_S170000 (U (Proc.devRef .tc main_v6))))) := by
  dsimp only [hostOps0_2]
  after_results_simp
  all_goals rfl

set_option maxHeartbeats 4000000 in
theorem p2_src : after (hostOps0_2 (F := Ideal)) U (Proc.devRef .tc main_v3)
    = U (Proc.devRef .tc main_v3) := by
  dsimp only [hostOps0_2]
  after_results_simp
  all_goals rfl

set_option maxHeartbeats 4000000 in
theorem p2_tgt : after (hostOps0_2 (F := Ideal)) U (Proc.devRef .tc main_v6)
    = U (Proc.devRef .tc main_v6) := by
  dsimp only [hostOps0_2]
  after_results_simp
  all_goals rfl

set_option maxHeartbeats 4000000 in
theorem p2_arg0 : after (hostOps0_2 (F := Ideal)) U (Proc.devRef .tc main_arg0)
    = U (Proc.devRef .tc main_arg0) := by
  dsimp only [hostOps0_2]
  after_results_simp
  all_goals rfl

set_option maxHeartbeats 4000000 in
theorem p2_arg2 : after (hostOps0_2 (F := Ideal)) U (Proc.devRef .tc main_arg2)
    = U (Proc.devRef .tc main_arg2) := by
  dsimp only [hostOps0_2]
  after_results_simp
  all_goals rfl

set_option maxHeartbeats 4000000 in
theorem p2_arg3 : after (hostOps0_2 (F := Ideal)) U (Proc.devRef .tc main_arg3)
    = U (Proc.devRef .tc main_arg3) := by
  dsimp only [hostOps0_2]
  after_results_simp
  all_goals rfl

/-! ## Between the regions: the first aggregation -/
set_option maxHeartbeats 8000000 in
theorem mid_h : after (hostOps1 (F := Ideal)) U (Proc.devRef .tc main_v43)
    = agg512 (U (Proc.devRef .tc main_v29)) (U (Proc.devRef .tc main_v3)) (U (Proc.devRef .tc main_v6)) (U (Proc.devRef .tc main_v30)) := by
  dsimp only [hostOps1]
  after_results_simp
  all_goals rfl

set_option maxHeartbeats 4000000 in
theorem mid_weights : after (hostOps1 (F := Ideal)) U (Proc.devRef .tc main_v29)
    = U (Proc.devRef .tc main_v29) := by
  dsimp only [hostOps1]
  after_results_simp
  all_goals rfl

set_option maxHeartbeats 4000000 in
theorem mid_src : after (hostOps1 (F := Ideal)) U (Proc.devRef .tc main_v3)
    = U (Proc.devRef .tc main_v3) := by
  dsimp only [hostOps1]
  after_results_simp
  all_goals rfl

set_option maxHeartbeats 4000000 in
theorem mid_tgt : after (hostOps1 (F := Ideal)) U (Proc.devRef .tc main_v6)
    = U (Proc.devRef .tc main_v6) := by
  dsimp only [hostOps1]
  after_results_simp
  all_goals rfl

set_option maxHeartbeats 4000000 in
theorem mid_arg3 : after (hostOps1 (F := Ideal)) U (Proc.devRef .tc main_arg3)
    = U (Proc.devRef .tc main_arg3) := by
  dsimp only [hostOps1]
  after_results_simp
  all_goals rfl

/-! ## After the second region: the second aggregation -/
set_option maxHeartbeats 8000000 in
theorem tail_out : after (hostOps2 (F := Ideal)) U (Proc.devRef .tc main_v57)
    = agg256 (U (Proc.devRef .tc main_v29)) (U (Proc.devRef .tc main_v3)) (U (Proc.devRef .tc main_v6)) (U (Proc.devRef .tc main_v44)) := by
  dsimp only [hostOps2]
  after_results_simp
  all_goals rfl

end Cert.KernelIdeal.HostSide

end
-- ==== Proof.KernelRun.lean ====
/-
  The kernel program's run with its result named.

  Every weakly fair execution of the program terminates, nothing faulting; the result buffer ends at the contents the last
  stretch of host operations leaves — the fold through the program's seven segments (three host stretches, the first
  region, a host stretch, the second region, a host stretch) from the launch memory — and the four arguments end as
  launched.
-/
import proofs.«172877_j63187558859328_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments as launched. -/
theorem run_result : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Hand

end
-- ==== Proof.KernelValue.lean ====
/-
  The kernel program's result as one function of its four argument arrays.

  With `S`, `T` the edges' source and target nodes and `w` the edge weights (all three from the edge list alone), and
  `A · y` the aggregation of the rows of `y` along the edges,

      result = A · ( (A · (x · W1))² · W2 ),

  the two products being what the two regions leave (each the whole product of what it finds, the second of its left
  operand squared), the aggregations what the host stretches between and after them compute. The proof walks the
  program's segments from the launch memory: before the first region the index vectors and weights are computed and the
  arguments are still as launched; each region rewrites only its result array; each host stretch rewrites only its own
  results.
-/
import proofs.«172877_j63187558859328_2_alg».proof.Proof.Blocks
import proofs.«172877_j63187558859328_2_alg».proof.Proof.KernelHost
import proofs.«172877_j63187558859328_2_alg».proof.Proof.KernelRun

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.KernelIdeal.HostSide Cert.KernelIdeal.Blocks Cert.Gcn Cert.LibProduct

/-- The network: two graph layers with an entrywise square between them. -/
def value (e : IVec EdgeList 32) (x : FVec Ideal (NodeRows 512) .f32) (w1 : FVec Ideal ⟨2, ![512, 512]⟩ .f32)
    (w2 : FVec Ideal ⟨2, ![512, 256]⟩ .f32) : FVec Ideal (NodeRows 256) .f32 :=
  agg256 (weightsOf (srcOf e) (tgtOf e)) (srcOf e) (tgtOf e)
    (product (square (agg512 (weightsOf (srcOf e) (tgtOf e)) (srcOf e) (tgtOf e) (product x w1))) w2)

variable (m : (ℓ : Loc nD τ sig) → Buf (Elt Ideal) ℓ) (ρ : Dev nD → PrngReg)

/-- The result buffer after the last stretch is the network of the launch arrays. -/
theorem result (c : Dev nD) :
    W7 m ρ c (Proc.devRef .tc main_v57) = value (m ((c.tc : Thread nD τ).loc main_arg1)) (m ((c.tc : Thread nD τ).loc main_arg0)) (m ((c.tc : Thread nD τ).loc main_arg2)) (m ((c.tc : Thread nD τ).loc main_arg3)) := by
  -- after the first stretch: the index vectors, the degree's mask and inverse square root; the arguments as launched
  have s1 : W1 m ρ c (Proc.devRef .tc main_v3) = (srcOf (m ((c.tc : Thread nD τ).loc main_arg1))) := p0_src (W0 m ρ c)
  have t1 : W1 m ρ c (Proc.devRef .tc main_v6) = (tgtOf (m ((c.tc : Thread nD τ).loc main_arg1))) := p0_tgt (W0 m ρ c)
  have pos1 : W1 m ρ c (Proc.devRef .tc main_v12) = cmpf .ogt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) (broadcastInDim S10000 ![] Facts₀.bcast_S_S10000 (constant (F := Ideal) S_ .f32 0x00000000#32)) := p0_pos (W0 m ρ c)
  have rsq1 : W1 m ρ c (Proc.devRef .tc main_v13) = Host.rsqrt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) := p0_rsq (W0 m ρ c)
  have z1 : W1 m ρ c (Proc.devRef .tc main_cst_2) = constant (F := Ideal) S_ .f32 0x00000000#32 := p0_zero (W0 m ρ c)
  have x1 : W1 m ρ c (Proc.devRef .tc main_arg0) = (m ((c.tc : Thread nD τ).loc main_arg0)) := p0_arg0 (W0 m ρ c)
  have u1 : W1 m ρ c (Proc.devRef .tc main_arg2) = (m ((c.tc : Thread nD τ).loc main_arg2)) := p0_arg2 (W0 m ρ c)
  have v1 : W1 m ρ c (Proc.devRef .tc main_arg3) = (m ((c.tc : Thread nD τ).loc main_arg3)) := p0_arg3 (W0 m ρ c)
  -- after the called function: the inverse square root of the degree where it is positive
  have i2 : W2 m ρ c (Proc.devRef .tc main_v14) = (invSqrtDegree (F := Ideal) Facts₀.bcast_S_S10000 (degree (F := Ideal) scatter_S10000_S170000x1_S170000_n_0_0_1 Facts₀.bcast_S_S10000 Facts₀.bcast_S_S170000 Facts₀.bcast_S170000_S170000x1_0 (tgtOf (m ((c.tc : Thread nD τ).loc main_arg1))))) := by
    refine (p1_inv (W1 m ρ c)).trans ?_
    rw [pos1, rsq1, z1]
    rfl
  have s2 : W2 m ρ c (Proc.devRef .tc main_v3) = (srcOf (m ((c.tc : Thread nD τ).loc main_arg1))) := (p1_src (W1 m ρ c)).trans s1
  have t2 : W2 m ρ c (Proc.devRef .tc main_v6) = (tgtOf (m ((c.tc : Thread nD τ).loc main_arg1))) := (p1_tgt (W1 m ρ c)).trans t1
  have x2 : W2 m ρ c (Proc.devRef .tc main_arg0) = (m ((c.tc : Thread nD τ).loc main_arg0)) := (p1_arg0 (W1 m ρ c)).trans x1
  have u2 : W2 m ρ c (Proc.devRef .tc main_arg2) = (m ((c.tc : Thread nD τ).loc main_arg2)) := (p1_arg2 (W1 m ρ c)).trans u1
  have v2 : W2 m ρ c (Proc.devRef .tc main_arg3) = (m ((c.tc : Thread nD τ).loc main_arg3)) := (p1_arg3 (W1 m ρ c)).trans v1
  -- at the first region's entry: the edge weights
  have w3 : W3 m ρ c (Proc.devRef .tc main_v29) = (weightsOf (srcOf (m ((c.tc : Thread nD τ).loc main_arg1))) (tgtOf (m ((c.tc : Thread nD τ).loc main_arg1)))) := by
    refine (p2_w (W2 m ρ c)).trans ?_
    rw [i2, s2, t2]
    rfl
  have s3 : W3 m ρ c (Proc.devRef .tc main_v3) = (srcOf (m ((c.tc : Thread nD τ).loc main_arg1))) := (p2_src (W2 m ρ c)).trans s2
  have t3 : W3 m ρ c (Proc.devRef .tc main_v6) = (tgtOf (m ((c.tc : Thread nD τ).loc main_arg1))) := (p2_tgt (W2 m ρ c)).trans t2
  have x3 : W3 m ρ c (Proc.devRef .tc main_arg0) = (m ((c.tc : Thread nD τ).loc main_arg0)) := (p2_arg0 (W2 m ρ c)).trans x2
  have u3 : W3 m ρ c (Proc.devRef .tc main_arg2) = (m ((c.tc : Thread nD τ).loc main_arg2)) := (p2_arg2 (W2 m ρ c)).trans u2
  have v3 : W3 m ρ c (Proc.devRef .tc main_arg3) = (m ((c.tc : Thread nD τ).loc main_arg3)) := (p2_arg3 (W2 m ρ c)).trans v2
  -- at its exit: the result array holds the first product, the rest is as entered
  have p4 : W4 m ρ c (Proc.devRef .tc main_v30) = product (m ((c.tc : Thread nD τ).loc main_arg0)) (m ((c.tc : Thread nD τ).loc main_arg2)) := by
    refine (W4_arr m ρ c 2).trans ((arr0 (V3 m ρ) c).trans ?_)
    show product (W3 m ρ c (Proc.devRef .tc main_arg0)) (W3 m ρ c (Proc.devRef .tc main_arg2)) = _
    rw [x3, u3]
  have s4 : W4 m ρ c (Proc.devRef .tc main_v3) = (srcOf (m ((c.tc : Thread nD τ).loc main_arg1))) := (W4_of_ne m ρ c main_v3 (by decide)).trans s3
  have t4 : W4 m ρ c (Proc.devRef .tc main_v6) = (tgtOf (m ((c.tc : Thread nD τ).loc main_arg1))) := (W4_of_ne m ρ c main_v6 (by decide)).trans t3
  have w4 : W4 m ρ c (Proc.devRef .tc main_v29) = (weightsOf (srcOf (m ((c.tc : Thread nD τ).loc main_arg1))) (tgtOf (m ((c.tc : Thread nD τ).loc main_arg1)))) := (W4_of_ne m ρ c main_v29 (by decide)).trans w3
  have v4 : W4 m ρ c (Proc.devRef .tc main_arg3) = (m ((c.tc : Thread nD τ).loc main_arg3)) := (W4_of_ne m ρ c main_arg3 (by decide)).trans v3
  -- at the second region's entry: the first aggregation
  have h5 : W5 m ρ c (Proc.devRef .tc main_v43) = (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (product (m ((c.tc : Thread nD τ).loc main_arg0)) (m ((c.tc : Thread nD τ).loc main_arg2)))) := by
    refine (mid_h (W4 m ρ c)).trans ?_
    rw [w4, s4, t4, p4]
  have s5 : W5 m ρ c (Proc.devRef .tc main_v3) = (srcOf (m ((c.tc : Thread nD τ).loc main_arg1))) := (mid_src (W4 m ρ c)).trans s4
  have t5 : W5 m ρ c (Proc.devRef .tc main_v6) = (tgtOf (m ((c.tc : Thread nD τ).loc main_arg1))) := (mid_tgt (W4 m ρ c)).trans t4
  have w5 : W5 m ρ c (Proc.devRef .tc main_v29) = (weightsOf (srcOf (m ((c.tc : Thread nD τ).loc main_arg1))) (tgtOf (m ((c.tc : Thread nD τ).loc main_arg1)))) := (mid_weights (W4 m ρ c)).trans w4
  have v5 : W5 m ρ c (Proc.devRef .tc main_arg3) = (m ((c.tc : Thread nD τ).loc main_arg3)) := (mid_arg3 (W4 m ρ c)).trans v4
  -- at its exit: the second product
  have p6 : W6 m ρ c (Proc.devRef .tc main_v44) = product (square (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (product (m ((c.tc : Thread nD τ).loc main_arg0)) (m ((c.tc : Thread nD τ).loc main_arg2))))) (m ((c.tc : Thread nD τ).loc main_arg3)) := by
    refine (W6_arr m ρ c 2).trans ((arr1 (V5 m ρ) c).trans ?_)
    show product (square (W5 m ρ c (Proc.devRef .tc main_v43))) (W5 m ρ c (Proc.devRef .tc main_arg3)) = _
    rw [h5, v5]
  have s6 : W6 m ρ c (Proc.devRef .tc main_v3) = (srcOf (m ((c.tc : Thread nD τ).loc main_arg1))) := (W6_of_ne m ρ c main_v3 (by decide)).trans s5
  have t6 : W6 m ρ c (Proc.devRef .tc main_v6) = (tgtOf (m ((c.tc : Thread nD τ).loc main_arg1))) := (W6_of_ne m ρ c main_v6 (by decide)).trans t5
  have w6 : W6 m ρ c (Proc.devRef .tc main_v29) = (weightsOf (srcOf (m ((c.tc : Thread nD τ).loc main_arg1))) (tgtOf (m ((c.tc : Thread nD τ).loc main_arg1)))) := (W6_of_ne m ρ c main_v29 (by decide)).trans w5
  -- the last stretch: the second aggregation
  refine (tail_out (W6 m ρ c)).trans ?_
  rw [w6, s6, t6, p6]
  rfl

/-- The kernel program's run, read: the result at the network of the launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v57) = value (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (run_result (F := Ideal) m ρ)

end Cert.KernelIdeal.Hand

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefRun.lean ====
/-
  The reference program's host operations as a list, in program order, and its run read back.

  The reference computes  out = A · ((A · (x · W1))² · W2)  where  A · y  gathers the rows of y at the edges' source nodes,
  scales each by the edge's weight and adds them up at the edges' target nodes. Its operations fall into eleven stretches, and
  the list is cut there so that each stretch can be read from whatever buffer contents it finds:

    A   the source and target index vectors (the two rows of the edge list, each followed by 0 … 9999 for the self loops);
    B   the first product  x · W1;
    C1  the in-degree of every node by a scatter-add of ones, the mask of where it is positive, its inverse square root;
    Cc  the inverse square root where the degree is positive, zero elsewhere (a called function's three operations);
    C2  that vector gathered at both ends of every edge and multiplied: the edge weights;
    D   the first aggregation: rows gathered at the sources, scaled by the edge weights, scatter-added at the targets;
    E   the entrywise square and the second product with W2;
    F1, Fc, F2  the edge weights again (the same operations on the same index vectors);
    G   the second aggregation, the result.

  Every weakly fair execution of the program terminates, and every buffer ends at the fold of the operations' results over the
  launch contents (`run_raw`); `after_split` cuts that fold at the stretches.
-/
import proofs.«172877_j63187558859328_2_alg».proof.Proof.Gen.ReferenceIdeal
import proofs.«172877_j63187558859328_2_alg».proof.Proof.LibStretch
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch A: the index vectors. -/
abbrev opsA : List (HloOp τ sig (Elt F)) :=
  [ nullary main_v0 (iotaInDim S10000 32 0),
    unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    reshape main_v1 main_v2 rfl shapeCasts_S1x160000_S160000,
    binary main_v2 main_v0 main_v3 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    reshape main_v4 main_v5 rfl shapeCasts_S1x160000_S160000,
    binary main_v5 main_v0 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)) ]

/-- Stretch B: the first product. -/
abbrev opsB : List (HloOp τ sig (Elt F)) :=
  [ binary main_arg0 main_arg2 main_v7 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)) ]

/-- Stretch C1: the degree, where it is positive, and its inverse square root. -/
abbrev opsC1 : List (HloOp τ sig (Elt F)) :=
  [ nullary main_cst (constant S_ .f32 0x3F800000#32),
    unary main_cst main_v8 (broadcastInDim S170000 ![] bcast_S_S170000 : (⟨S_, .f32⟩ : BufTy).Contents (Elt F) → (⟨S170000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v6 main_v10 (broadcastInDim S170000x1 ![0] bcast_S170000_S170000x1_0 : (⟨S170000, .i32⟩ : BufTy).Contents (Elt F) → (⟨S170000x1, .i32⟩ : BufTy).Contents (Elt F)),
    ternary main_v9 main_v10 main_v8 main_v11 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32) ]

/-- Stretch Cc: the choice between the inverse square root and zero (a called function, its operations in the call's place). -/
abbrev opsCc : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select ]

/-- Stretch C2: the edge weights, gathered at both ends of every edge and multiplied. -/
abbrev opsC2 : List (HloOp τ sig (Elt F)) :=
  [ nullary main_c (constantI S_ 32 0#32),
    unary main_c main_v16 (broadcastInDim S170000 ![] bcast_S_S170000 : (⟨S_, .i32⟩ : BufTy).Contents (Elt F) → (⟨S170000, .i32⟩ : BufTy).Contents (Elt F)),
    binary main_v3 main_v16 main_v17 (cmpi .slt : (⟨S170000, .i32⟩ : BufTy).Contents (Elt F) → (⟨S170000, .i32⟩ : BufTy).Contents (Elt F) → (⟨S170000, .i1⟩ : BufTy).Contents (Elt F)),
    nullary main_c_3 (constantI S_ 32 10000#32),
    unary main_c_3 main_v18 (broadcastInDim S170000 ![] bcast_S_S170000 : (⟨S_, .i32⟩ : BufTy).Contents (Elt F) → (⟨S170000, .i32⟩ : BufTy).Contents (Elt F)),
    binary main_v3 main_v18 main_v19 (addi : (⟨S170000, .i32⟩ : BufTy).Contents (Elt F) → (⟨S170000, .i32⟩ : BufTy).Contents (Elt F) → (⟨S170000, .i32⟩ : BufTy).Contents (Elt F)),
    ternary main_v17 main_v19 main_v3 main_v20 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v20 main_v21 (broadcastInDim S170000x1 ![0] bcast_S170000_S170000x1_0 : (⟨S170000, .i32⟩ : BufTy).Contents (Elt F) → (⟨S170000x1, .i32⟩ : BufTy).Contents (Elt F)),
    binary main_v15 main_v21 main_v22 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_4 (constantI S_ 32 0#32),
    unary main_c_4 main_v23 (broadcastInDim S170000 ![] bcast_S_S170000 : (⟨S_, .i32⟩ : BufTy).Contents (Elt F) → (⟨S170000, .i32⟩ : BufTy).Contents (Elt F)),
    binary main_v6 main_v23 main_v24 (cmpi .slt : (⟨S170000, .i32⟩ : BufTy).Contents (Elt F) → (⟨S170000, .i32⟩ : BufTy).Contents (Elt F) → (⟨S170000, .i1⟩ : BufTy).Contents (Elt F)),
    nullary main_c_5 (constantI S_ 32 10000#32),
    unary main_c_5 main_v25 (broadcastInDim S170000 ![] bcast_S_S170000 : (⟨S_, .i32⟩ : BufTy).Contents (Elt F) → (⟨S170000, .i32⟩ : BufTy).Contents (Elt F)),
    binary main_v6 main_v25 main_v26 (addi : (⟨S170000, .i32⟩ : BufTy).Contents (Elt F) → (⟨S170000, .i32⟩ : BufTy).Contents (Elt F) → (⟨S170000, .i32⟩ : BufTy).Contents (Elt F)),
    ternary main_v24 main_v26 main_v6 main_v27 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v27 main_v28 (broadcastInDim S170000x1 ![0] bcast_S170000_S170000x1_0 : (⟨S170000, .i32⟩ : BufTy).Contents (Elt F) → (⟨S170000x1, .i32⟩ : BufTy).Contents (Elt F)),
    binary main_v15 main_v28 main_v29 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v22 main_v29 main_v30 (mulf : (⟨S170000, .f32⟩ : BufTy).Contents (Elt F) → (⟨S170000, .f32⟩ : BufTy).Contents (Elt F) → (⟨S170000, .f32⟩ : BufTy).Contents (Elt F)) ]

/-- Stretch D: the first aggregation. -/
abbrev opsD : List (HloOp τ sig (Elt F)) :=
  [ unary main_v30 main_v31 (broadcastInDim S170000x1 ![0] bcast_S170000_S170000x1_0 : (⟨S170000, .f32⟩ : BufTy).Contents (Elt F) → (⟨S170000x1, .f32⟩ : BufTy).Contents (Elt F)),
    nullary main_c_6 (constantI S_ 32 0#32),
    unary main_c_6 main_v32 (broadcastInDim S170000 ![] bcast_S_S170000 : (⟨S_, .i32⟩ : BufTy).Contents (Elt F) → (⟨S170000, .i32⟩ : BufTy).Contents (Elt F)),
    binary main_v3 main_v32 main_v33 (cmpi .slt : (⟨S170000, .i32⟩ : BufTy).Contents (Elt F) → (⟨S170000, .i32⟩ : BufTy).Contents (Elt F) → (⟨S170000, .i1⟩ : BufTy).Contents (Elt F)),
    nullary main_c_7 (constantI S_ 32 10000#32),
    unary main_c_7 main_v34 (broadcastInDim S170000 ![] bcast_S_S170000 : (⟨S_, .i32⟩ : BufTy).Contents (Elt F) → (⟨S170000, .i32⟩ : BufTy).Contents (Elt F)),
    binary main_v3 main_v34 main_v35 (addi : (⟨S170000, .i32⟩ : BufTy).Contents (Elt F) → (⟨S170000, .i32⟩ : BufTy).Contents (Elt F) → (⟨S170000, .i32⟩ : BufTy).Contents (Elt F)),
    ternary main_v33 main_v35 main_v3 main_v36 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v36 main_v37 (broadcastInDim S170000x1 ![0] bcast_S170000_S170000x1_0 : (⟨S170000, .i32⟩ : BufTy).Contents (Elt F) → (⟨S170000x1, .i32⟩ : BufTy).Contents (Elt F)),
    binary main_v7 main_v37 main_v38 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v31 main_v39 (broadcastInDim S170000x512 ![0, 1] bcast_S170000x1_S170000x512_0_1 : (⟨S170000x1, .f32⟩ : BufTy).Contents (Elt F) → (⟨S170000x512, .f32⟩ : BufTy).Contents (Elt F)),
    binary main_v39 main_v38 main_v40 (mulf : (⟨S170000x512, .f32⟩ : BufTy).Contents (Elt F) → (⟨S170000x512, .f32⟩ : BufTy).Contents (Elt F) → (⟨S170000x512, .f32⟩ : BufTy).Contents (Elt F)),
    nullary main_cst_8 (constant S_ .f32 0x00000000#32),
    unary main_cst_8 main_v41 (broadcastInDim S10000x512 ![] bcast_S_S10000x512 : (⟨S_, .f32⟩ : BufTy).Contents (Elt F) → (⟨S10000x512, .f32⟩ : BufTy).Contents (Elt F)),
    unary main_v6 main_v42 (broadcastInDim S170000x1 ![0] bcast_S170000_S170000x1_0 : (⟨S170000, .i32⟩ : BufTy).Contents (Elt F) → (⟨S170000x1, .i32⟩ : BufTy).Contents (Elt F)),
    ternary main_v41 main_v42 main_v40 main_v43 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)) ]

/-- Stretch E: the square and the second product. -/
abbrev opsE : List (HloOp τ sig (Elt F)) :=
  [ binary main_v43 main_v43 main_v44 (mulf : (⟨S10000x512, .f32⟩ : BufTy).Contents (Elt F) → (⟨S10000x512, .f32⟩ : BufTy).Contents (Elt F) → (⟨S10000x512, .f32⟩ : BufTy).Contents (Elt F)),
    binary main_v44 main_arg3 main_v45 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)) ]

/-- Stretch F1: the degree, where it is positive, and its inverse square root, a second time. -/
abbrev opsF1 : List (HloOp τ sig (Elt F)) :=
  [ nullary main_cst_9 (constant S_ .f32 0x3F800000#32),
    unary main_cst_9 main_v46 (broadcastInDim S170000 ![] bcast_S_S170000 : (⟨S_, .f32⟩ : BufTy).Contents (Elt F) → (⟨S170000, .f32⟩ : BufTy).Contents (Elt F)),
    nullary main_cst_10 (constant S_ .f32 0x00000000#32),
    unary main_cst_10 main_v47 (broadcastInDim S10000 ![] bcast_S_S10000 : (⟨S_, .f32⟩ : BufTy).Contents (Elt F) → (⟨S10000, .f32⟩ : BufTy).Contents (Elt F)),
    unary main_v6 main_v48 (broadcastInDim S170000x1 ![0] bcast_S170000_S170000x1_0 : (⟨S170000, .i32⟩ : BufTy).Contents (Elt F) → (⟨S170000x1, .i32⟩ : BufTy).Contents (Elt F)),
    ternary main_v47 main_v48 main_v46 main_v49 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_11 (constant S_ .f32 0x00000000#32),
    unary main_cst_11 main_v50 (broadcastInDim S10000 ![] bcast_S_S10000 : (⟨S_, .f32⟩ : BufTy).Contents (Elt F) → (⟨S10000, .f32⟩ : BufTy).Contents (Elt F)),
    binary main_v49 main_v50 main_v51 (cmpf .ogt : (⟨S10000, .f32⟩ : BufTy).Contents (Elt F) → (⟨S10000, .f32⟩ : BufTy).Contents (Elt F) → (⟨S10000, .i1⟩ : BufTy).Contents (Elt F)),
    unary main_v49 main_v52 (Host.rsqrt : (⟨S10000, .f32⟩ : BufTy).Contents (Elt F) → (⟨S10000, .f32⟩ : BufTy).Contents (Elt F)),
    nullary main_cst_12 (constant S_ .f32 0x00000000#32) ]

/-- Stretch Fc: the choice, a second time. -/
abbrev opsFc : List (HloOp τ sig (Elt F)) :=
  [ TRef.unary (TRef.of (T := ⟨S_, .f32⟩) main_cst_12) (TRef.of (T := ⟨S_, .f32⟩) main_call1_v0) id,
    TRef.unary (TRef.of (T := ⟨S_, .f32⟩) main_call1_v0) (TRef.of (T := ⟨S10000, .f32⟩) main_call1_v1) (broadcastInDim S10000 ![] bcast_S_S10000),
    TRef.ternary (TRef.of (T := ⟨S10000, .i1⟩) main_v51) (TRef.of (T := ⟨S10000, .f32⟩) main_v52) (TRef.of (T := ⟨S10000, .f32⟩) main_call1_v1) (TRef.of (T := ⟨S10000, .f32⟩) main_v53) select ]

/-- Stretch F2: the edge weights, a second time. -/
abbrev opsF2 : List (HloOp τ sig (Elt F)) :=
  [ nullary main_c_13 (constantI S_ 32 0#32),
    unary main_c_13 main_v54 (broadcastInDim S170000 ![] bcast_S_S170000 : (⟨S_, .i32⟩ : BufTy).Contents (Elt F) → (⟨S170000, .i32⟩ : BufTy).Contents (Elt F)),
    binary main_v3 main_v54 main_v55 (cmpi .slt : (⟨S170000, .i32⟩ : BufTy).Contents (Elt F) → (⟨S170000, .i32⟩ : BufTy).Contents (Elt F) → (⟨S170000, .i1⟩ : BufTy).Contents (Elt F)),
    nullary main_c_14 (constantI S_ 32 10000#32),
    unary main_c_14 main_v56 (broadcastInDim S170000 ![] bcast_S_S170000 : (⟨S_, .i32⟩ : BufTy).Contents (Elt F) → (⟨S170000, .i32⟩ : BufTy).Contents (Elt F)),
    binary main_v3 main_v56 main_v57 (addi : (⟨S170000, .i32⟩ : BufTy).Contents (Elt F) → (⟨S170000, .i32⟩ : BufTy).Contents (Elt F) → (⟨S170000, .i32⟩ : BufTy).Contents (Elt F)),
    ternary main_v55 main_v57 main_v3 main_v58 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v58 main_v59 (broadcastInDim S170000x1 ![0] bcast_S170000_S170000x1_0 : (⟨S170000, .i32⟩ : BufTy).Contents (Elt F) → (⟨S170000x1, .i32⟩ : BufTy).Contents (Elt F)),
    binary main_v53 main_v59 main_v60 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_15 (constantI S_ 32 0#32),
    unary main_c_15 main_v61 (broadcastInDim S170000 ![] bcast_S_S170000 : (⟨S_, .i32⟩ : BufTy).Contents (Elt F) → (⟨S170000, .i32⟩ : BufTy).Contents (Elt F)),
    binary main_v6 main_v61 main_v62 (cmpi .slt : (⟨S170000, .i32⟩ : BufTy).Contents (Elt F) → (⟨S170000, .i32⟩ : BufTy).Contents (Elt F) → (⟨S170000, .i1⟩ : BufTy).Contents (Elt F)),
    nullary main_c_16 (constantI S_ 32 10000#32),
    unary main_c_16 main_v63 (broadcastInDim S170000 ![] bcast_S_S170000 : (⟨S_, .i32⟩ : BufTy).Contents (Elt F) → (⟨S170000, .i32⟩ : BufTy).Contents (Elt F)),
    binary main_v6 main_v63 main_v64 (addi : (⟨S170000, .i32⟩ : BufTy).Contents (Elt F) → (⟨S170000, .i32⟩ : BufTy).Contents (Elt F) → (⟨S170000, .i32⟩ : BufTy).Contents (Elt F)),
    ternary main_v62 main_v64 main_v6 main_v65 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v65 main_v66 (broadcastInDim S170000x1 ![0] bcast_S170000_S170000x1_0 : (⟨S170000, .i32⟩ : BufTy).Contents (Elt F) → (⟨S170000x1, .i32⟩ : BufTy).Contents (Elt F)),
    binary main_v53 main_v66 main_v67 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v60 main_v67 main_v68 (mulf : (⟨S170000, .f32⟩ : BufTy).Contents (Elt F) → (⟨S170000, .f32⟩ : BufTy).Contents (Elt F) → (⟨S170000, .f32⟩ : BufTy).Contents (Elt F)) ]

/-- Stretch G: the second aggregation. -/
abbrev opsG : List (HloOp τ sig (Elt F)) :=
  [ unary main_v68 main_v69 (broadcastInDim S170000x1 ![0] bcast_S170000_S170000x1_0 : (⟨S170000, .f32⟩ : BufTy).Contents (Elt F) → (⟨S170000x1, .f32⟩ : BufTy).Contents (Elt F)),
    nullary main_c_17 (constantI S_ 32 0#32),
    unary main_c_17 main_v70 (broadcastInDim S170000 ![] bcast_S_S170000 : (⟨S_, .i32⟩ : BufTy).Contents (Elt F) → (⟨S170000, .i32⟩ : BufTy).Contents (Elt F)),
    binary main_v3 main_v70 main_v71 (cmpi .slt : (⟨S170000, .i32⟩ : BufTy).Contents (Elt F) → (⟨S170000, .i32⟩ : BufTy).Contents (Elt F) → (⟨S170000, .i1⟩ : BufTy).Contents (Elt F)),
    nullary main_c_18 (constantI S_ 32 10000#32),
    unary main_c_18 main_v72 (broadcastInDim S170000 ![] bcast_S_S170000 : (⟨S_, .i32⟩ : BufTy).Contents (Elt F) → (⟨S170000, .i32⟩ : BufTy).Contents (Elt F)),
    binary main_v3 main_v72 main_v73 (addi : (⟨S170000, .i32⟩ : BufTy).Contents (Elt F) → (⟨S170000, .i32⟩ : BufTy).Contents (Elt F) → (⟨S170000, .i32⟩ : BufTy).Contents (Elt F)),
    ternary main_v71 main_v73 main_v3 main_v74 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v74 main_v75 (broadcastInDim S170000x1 ![0] bcast_S170000_S170000x1_0 : (⟨S170000, .i32⟩ : BufTy).Contents (Elt F) → (⟨S170000x1, .i32⟩ : BufTy).Contents (Elt F)),
    binary main_v45 main_v75 main_v76 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    unary main_v69 main_v77 (broadcastInDim S170000x256 ![0, 1] bcast_S170000x1_S170000x256_0_1 : (⟨S170000x1, .f32⟩ : BufTy).Contents (Elt F) → (⟨S170000x256, .f32⟩ : BufTy).Contents (Elt F)),
    binary main_v77 main_v76 main_v78 (mulf : (⟨S170000x256, .f32⟩ : BufTy).Contents (Elt F) → (⟨S170000x256, .f32⟩ : BufTy).Contents (Elt F) → (⟨S170000x256, .f32⟩ : BufTy).Contents (Elt F)),
    nullary main_cst_19 (constant S_ .f32 0x00000000#32),
    unary main_cst_19 main_v79 (broadcastInDim S10000x256 ![] bcast_S_S10000x256 : (⟨S_, .f32⟩ : BufTy).Contents (Elt F) → (⟨S10000x256, .f32⟩ : BufTy).Contents (Elt F)),
    unary main_v6 main_v80 (broadcastInDim S170000x1 ![0] bcast_S170000_S170000x1_0 : (⟨S170000, .i32⟩ : BufTy).Contents (Elt F) → (⟨S170000x1, .i32⟩ : BufTy).Contents (Elt F)),
    ternary main_v79 main_v80 main_v78 main_v81 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)) ]

/-- The whole program: its 108 operations, in order (a called function's operations stand in its call's place). -/
abbrev ops : List (HloOp τ sig (Elt F)) :=
  [ nullary main_v0 (iotaInDim S10000 32 0),
    unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    reshape main_v1 main_v2 rfl shapeCasts_S1x160000_S160000,
    binary main_v2 main_v0 main_v3 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    reshape main_v4 main_v5 rfl shapeCasts_S1x160000_S160000,
    binary main_v5 main_v0 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    binary main_arg0 main_arg2 main_v7 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    nullary main_cst (constant S_ .f32 0x3F800000#32),
    unary main_cst main_v8 (broadcastInDim S170000 ![] bcast_S_S170000 : (⟨S_, .f32⟩ : BufTy).Contents (Elt F) → (⟨S170000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v6 main_v10 (broadcastInDim S170000x1 ![0] bcast_S170000_S170000x1_0 : (⟨S170000, .i32⟩ : BufTy).Contents (Elt F) → (⟨S170000x1, .i32⟩ : BufTy).Contents (Elt F)),
    ternary main_v9 main_v10 main_v8 main_v11 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S170000 ![] bcast_S_S170000 : (⟨S_, .i32⟩ : BufTy).Contents (Elt F) → (⟨S170000, .i32⟩ : BufTy).Contents (Elt F)),
    binary main_v3 main_v16 main_v17 (cmpi .slt : (⟨S170000, .i32⟩ : BufTy).Contents (Elt F) → (⟨S170000, .i32⟩ : BufTy).Contents (Elt F) → (⟨S170000, .i1⟩ : BufTy).Contents (Elt F)),
    nullary main_c_3 (constantI S_ 32 10000#32),
    unary main_c_3 main_v18 (broadcastInDim S170000 ![] bcast_S_S170000 : (⟨S_, .i32⟩ : BufTy).Contents (Elt F) → (⟨S170000, .i32⟩ : BufTy).Contents (Elt F)),
    binary main_v3 main_v18 main_v19 (addi : (⟨S170000, .i32⟩ : BufTy).Contents (Elt F) → (⟨S170000, .i32⟩ : BufTy).Contents (Elt F) → (⟨S170000, .i32⟩ : BufTy).Contents (Elt F)),
    ternary main_v17 main_v19 main_v3 main_v20 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v20 main_v21 (broadcastInDim S170000x1 ![0] bcast_S170000_S170000x1_0 : (⟨S170000, .i32⟩ : BufTy).Contents (Elt F) → (⟨S170000x1, .i32⟩ : BufTy).Contents (Elt F)),
    binary main_v15 main_v21 main_v22 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_4 (constantI S_ 32 0#32),
    unary main_c_4 main_v23 (broadcastInDim S170000 ![] bcast_S_S170000 : (⟨S_, .i32⟩ : BufTy).Contents (Elt F) → (⟨S170000, .i32⟩ : BufTy).Contents (Elt F)),
    binary main_v6 main_v23 main_v24 (cmpi .slt : (⟨S170000, .i32⟩ : BufTy).Contents (Elt F) → (⟨S170000, .i32⟩ : BufTy).Contents (Elt F) → (⟨S170000, .i1⟩ : BufTy).Contents (Elt F)),
    nullary main_c_5 (constantI S_ 32 10000#32),
    unary main_c_5 main_v25 (broadcastInDim S170000 ![] bcast_S_S170000 : (⟨S_, .i32⟩ : BufTy).Contents (Elt F) → (⟨S170000, .i32⟩ : BufTy).Contents (Elt F)),
    binary main_v6 main_v25 main_v26 (addi : (⟨S170000, .i32⟩ : BufTy).Contents (Elt F) → (⟨S170000, .i32⟩ : BufTy).Contents (Elt F) → (⟨S170000, .i32⟩ : BufTy).Contents (Elt F)),
    ternary main_v24 main_v26 main_v6 main_v27 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v27 main_v28 (broadcastInDim S170000x1 ![0] bcast_S170000_S170000x1_0 : (⟨S170000, .i32⟩ : BufTy).Contents (Elt F) → (⟨S170000x1, .i32⟩ : BufTy).Contents (Elt F)),
    binary main_v15 main_v28 main_v29 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v22 main_v29 main_v30 (mulf : (⟨S170000, .f32⟩ : BufTy).Contents (Elt F) → (⟨S170000, .f32⟩ : BufTy).Contents (Elt F) → (⟨S170000, .f32⟩ : BufTy).Contents (Elt F)),
    unary main_v30 main_v31 (broadcastInDim S170000x1 ![0] bcast_S170000_S170000x1_0 : (⟨S170000, .f32⟩ : BufTy).Contents (Elt F) → (⟨S170000x1, .f32⟩ : BufTy).Contents (Elt F)),
    nullary main_c_6 (constantI S_ 32 0#32),
    unary main_c_6 main_v32 (broadcastInDim S170000 ![] bcast_S_S170000 : (⟨S_, .i32⟩ : BufTy).Contents (Elt F) → (⟨S170000, .i32⟩ : BufTy).Contents (Elt F)),
    binary main_v3 main_v32 main_v33 (cmpi .slt : (⟨S170000, .i32⟩ : BufTy).Contents (Elt F) → (⟨S170000, .i32⟩ : BufTy).Contents (Elt F) → (⟨S170000, .i1⟩ : BufTy).Contents (Elt F)),
    nullary main_c_7 (constantI S_ 32 10000#32),
    unary main_c_7 main_v34 (broadcastInDim S170000 ![] bcast_S_S170000 : (⟨S_, .i32⟩ : BufTy).Contents (Elt F) → (⟨S170000, .i32⟩ : BufTy).Contents (Elt F)),
    binary main_v3 main_v34 main_v35 (addi : (⟨S170000, .i32⟩ : BufTy).Contents (Elt F) → (⟨S170000, .i32⟩ : BufTy).Contents (Elt F) → (⟨S170000, .i32⟩ : BufTy).Contents (Elt F)),
    ternary main_v33 main_v35 main_v3 main_v36 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v36 main_v37 (broadcastInDim S170000x1 ![0] bcast_S170000_S170000x1_0 : (⟨S170000, .i32⟩ : BufTy).Contents (Elt F) → (⟨S170000x1, .i32⟩ : BufTy).Contents (Elt F)),
    binary main_v7 main_v37 main_v38 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    unary main_v31 main_v39 (broadcastInDim S170000x512 ![0, 1] bcast_S170000x1_S170000x512_0_1 : (⟨S170000x1, .f32⟩ : BufTy).Contents (Elt F) → (⟨S170000x512, .f32⟩ : BufTy).Contents (Elt F)),
    binary main_v39 main_v38 main_v40 (mulf : (⟨S170000x512, .f32⟩ : BufTy).Contents (Elt F) → (⟨S170000x512, .f32⟩ : BufTy).Contents (Elt F) → (⟨S170000x512, .f32⟩ : BufTy).Contents (Elt F)),
    nullary main_cst_8 (constant S_ .f32 0x00000000#32),
    unary main_cst_8 main_v41 (broadcastInDim S10000x512 ![] bcast_S_S10000x512 : (⟨S_, .f32⟩ : BufTy).Contents (Elt F) → (⟨S10000x512, .f32⟩ : BufTy).Contents (Elt F)),
    unary main_v6 main_v42 (broadcastInDim S170000x1 ![0] bcast_S170000_S170000x1_0 : (⟨S170000, .i32⟩ : BufTy).Contents (Elt F) → (⟨S170000x1, .i32⟩ : BufTy).Contents (Elt F)),
    ternary main_v41 main_v42 main_v40 main_v43 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    binary main_v43 main_v43 main_v44 (mulf : (⟨S10000x512, .f32⟩ : BufTy).Contents (Elt F) → (⟨S10000x512, .f32⟩ : BufTy).Contents (Elt F) → (⟨S10000x512, .f32⟩ : BufTy).Contents (Elt F)),
    binary main_v44 main_arg3 main_v45 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_cst_9 (constant S_ .f32 0x3F800000#32),
    unary main_cst_9 main_v46 (broadcastInDim S170000 ![] bcast_S_S170000 : (⟨S_, .f32⟩ : BufTy).Contents (Elt F) → (⟨S170000, .f32⟩ : BufTy).Contents (Elt F)),
    nullary main_cst_10 (constant S_ .f32 0x00000000#32),
    unary main_cst_10 main_v47 (broadcastInDim S10000 ![] bcast_S_S10000 : (⟨S_, .f32⟩ : BufTy).Contents (Elt F) → (⟨S10000, .f32⟩ : BufTy).Contents (Elt F)),
    unary main_v6 main_v48 (broadcastInDim S170000x1 ![0] bcast_S170000_S170000x1_0 : (⟨S170000, .i32⟩ : BufTy).Contents (Elt F) → (⟨S170000x1, .i32⟩ : BufTy).Contents (Elt F)),
    ternary main_v47 main_v48 main_v46 main_v49 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_11 (constant S_ .f32 0x00000000#32),
    unary main_cst_11 main_v50 (broadcastInDim S10000 ![] bcast_S_S10000 : (⟨S_, .f32⟩ : BufTy).Contents (Elt F) → (⟨S10000, .f32⟩ : BufTy).Contents (Elt F)),
    binary main_v49 main_v50 main_v51 (cmpf .ogt : (⟨S10000, .f32⟩ : BufTy).Contents (Elt F) → (⟨S10000, .f32⟩ : BufTy).Contents (Elt F) → (⟨S10000, .i1⟩ : BufTy).Contents (Elt F)),
    unary main_v49 main_v52 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S10000, .f32⟩) main_call1_v1) (broadcastInDim S10000 ![] bcast_S_S10000),
    TRef.ternary (TRef.of (T := ⟨S10000, .i1⟩) main_v51) (TRef.of (T := ⟨S10000, .f32⟩) main_v52) (TRef.of (T := ⟨S10000, .f32⟩) main_call1_v1) (TRef.of (T := ⟨S10000, .f32⟩) main_v53) select,
    nullary main_c_13 (constantI S_ 32 0#32),
    unary main_c_13 main_v54 (broadcastInDim S170000 ![] bcast_S_S170000 : (⟨S_, .i32⟩ : BufTy).Contents (Elt F) → (⟨S170000, .i32⟩ : BufTy).Contents (Elt F)),
    binary main_v3 main_v54 main_v55 (cmpi .slt : (⟨S170000, .i32⟩ : BufTy).Contents (Elt F) → (⟨S170000, .i32⟩ : BufTy).Contents (Elt F) → (⟨S170000, .i1⟩ : BufTy).Contents (Elt F)),
    nullary main_c_14 (constantI S_ 32 10000#32),
    unary main_c_14 main_v56 (broadcastInDim S170000 ![] bcast_S_S170000 : (⟨S_, .i32⟩ : BufTy).Contents (Elt F) → (⟨S170000, .i32⟩ : BufTy).Contents (Elt F)),
    binary main_v3 main_v56 main_v57 (addi : (⟨S170000, .i32⟩ : BufTy).Contents (Elt F) → (⟨S170000, .i32⟩ : BufTy).Contents (Elt F) → (⟨S170000, .i32⟩ : BufTy).Contents (Elt F)),
    ternary main_v55 main_v57 main_v3 main_v58 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v58 main_v59 (broadcastInDim S170000x1 ![0] bcast_S170000_S170000x1_0 : (⟨S170000, .i32⟩ : BufTy).Contents (Elt F) → (⟨S170000x1, .i32⟩ : BufTy).Contents (Elt F)),
    binary main_v53 main_v59 main_v60 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_15 (constantI S_ 32 0#32),
    unary main_c_15 main_v61 (broadcastInDim S170000 ![] bcast_S_S170000 : (⟨S_, .i32⟩ : BufTy).Contents (Elt F) → (⟨S170000, .i32⟩ : BufTy).Contents (Elt F)),
    binary main_v6 main_v61 main_v62 (cmpi .slt : (⟨S170000, .i32⟩ : BufTy).Contents (Elt F) → (⟨S170000, .i32⟩ : BufTy).Contents (Elt F) → (⟨S170000, .i1⟩ : BufTy).Contents (Elt F)),
    nullary main_c_16 (constantI S_ 32 10000#32),
    unary main_c_16 main_v63 (broadcastInDim S170000 ![] bcast_S_S170000 : (⟨S_, .i32⟩ : BufTy).Contents (Elt F) → (⟨S170000, .i32⟩ : BufTy).Contents (Elt F)),
    binary main_v6 main_v63 main_v64 (addi : (⟨S170000, .i32⟩ : BufTy).Contents (Elt F) → (⟨S170000, .i32⟩ : BufTy).Contents (Elt F) → (⟨S170000, .i32⟩ : BufTy).Contents (Elt F)),
    ternary main_v62 main_v64 main_v6 main_v65 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v65 main_v66 (broadcastInDim S170000x1 ![0] bcast_S170000_S170000x1_0 : (⟨S170000, .i32⟩ : BufTy).Contents (Elt F) → (⟨S170000x1, .i32⟩ : BufTy).Contents (Elt F)),
    binary main_v53 main_v66 main_v67 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v60 main_v67 main_v68 (mulf : (⟨S170000, .f32⟩ : BufTy).Contents (Elt F) → (⟨S170000, .f32⟩ : BufTy).Contents (Elt F) → (⟨S170000, .f32⟩ : BufTy).Contents (Elt F)),
    unary main_v68 main_v69 (broadcastInDim S170000x1 ![0] bcast_S170000_S170000x1_0 : (⟨S170000, .f32⟩ : BufTy).Contents (Elt F) → (⟨S170000x1, .f32⟩ : BufTy).Contents (Elt F)),
    nullary main_c_17 (constantI S_ 32 0#32),
    unary main_c_17 main_v70 (broadcastInDim S170000 ![] bcast_S_S170000 : (⟨S_, .i32⟩ : BufTy).Contents (Elt F) → (⟨S170000, .i32⟩ : BufTy).Contents (Elt F)),
    binary main_v3 main_v70 main_v71 (cmpi .slt : (⟨S170000, .i32⟩ : BufTy).Contents (Elt F) → (⟨S170000, .i32⟩ : BufTy).Contents (Elt F) → (⟨S170000, .i1⟩ : BufTy).Contents (Elt F)),
    nullary main_c_18 (constantI S_ 32 10000#32),
    unary main_c_18 main_v72 (broadcastInDim S170000 ![] bcast_S_S170000 : (⟨S_, .i32⟩ : BufTy).Contents (Elt F) → (⟨S170000, .i32⟩ : BufTy).Contents (Elt F)),
    binary main_v3 main_v72 main_v73 (addi : (⟨S170000, .i32⟩ : BufTy).Contents (Elt F) → (⟨S170000, .i32⟩ : BufTy).Contents (Elt F) → (⟨S170000, .i32⟩ : BufTy).Contents (Elt F)),
    ternary main_v71 main_v73 main_v3 main_v74 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v74 main_v75 (broadcastInDim S170000x1 ![0] bcast_S170000_S170000x1_0 : (⟨S170000, .i32⟩ : BufTy).Contents (Elt F) → (⟨S170000x1, .i32⟩ : BufTy).Contents (Elt F)),
    binary main_v45 main_v75 main_v76 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    unary main_v69 main_v77 (broadcastInDim S170000x256 ![0, 1] bcast_S170000x1_S170000x256_0_1 : (⟨S170000x1, .f32⟩ : BufTy).Contents (Elt F) → (⟨S170000x256, .f32⟩ : BufTy).Contents (Elt F)),
    binary main_v77 main_v76 main_v78 (mulf : (⟨S170000x256, .f32⟩ : BufTy).Contents (Elt F) → (⟨S170000x256, .f32⟩ : BufTy).Contents (Elt F) → (⟨S170000x256, .f32⟩ : BufTy).Contents (Elt F)),
    nullary main_cst_19 (constant S_ .f32 0x00000000#32),
    unary main_cst_19 main_v79 (broadcastInDim S10000x256 ![] bcast_S_S10000x256 : (⟨S_, .f32⟩ : BufTy).Contents (Elt F) → (⟨S10000x256, .f32⟩ : BufTy).Contents (Elt F)),
    unary main_v6 main_v80 (broadcastInDim S170000x1 ![0] bcast_S170000_S170000x1_0 : (⟨S170000, .i32⟩ : BufTy).Contents (Elt F) → (⟨S170000x1, .i32⟩ : BufTy).Contents (Elt F)),
    ternary main_v79 main_v80 main_v78 main_v81 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)) ]

/-- The program is its stretches one after the other. -/
theorem ops_split : (ops : List (HloOp τ sig (Elt F))) = opsA ++ (opsB ++ (opsC1 ++ (opsCc ++ (opsC2 ++ (opsD ++ (opsE ++ (opsF1 ++ (opsFc ++ (opsF2 ++ (opsG)))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- The buffer contents after the whole program are the stretches' folds, each over the one before. -/
theorem after_split (V : Valuation τ sig (Elt F)) :
    after ops V = after opsG (after opsF2 (after opsFc (after opsF1 (after opsE (after opsD (after opsC2 (after opsCc (after opsC1 (after opsB (after opsA (V))))))))))) := by
  rw [ops_split]
  simp only [Cert.LibStretch.after_append]

/-- Every weakly fair execution of the reference terminates, nothing faulting, with every buffer at the fold of the
    operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.RefHost.lean ====
/-
  The reference program's host operations read against the layer's functions, in six reads, each over whatever contents
  it finds: the index vectors, the first product and the degree; the called function choosing the inverse square root or
  zero; the edge weights, the first aggregation, the square and the second product; the degree, the called function and the
  edge weights once more (from the same index vectors); the second aggregation, the result. The called
  function's operations pass their values through buffers of a declared type; what comes out is what went in.
-/
import proofs.«172877_j63187558859328_2_alg».proof.Proof.RefRun
import proofs.«172877_j63187558859328_2_alg».proof.Proof.Layer
import Idealize.ShloMosaic.PureOps.Ideal
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.HostSide

open Cert.ReferenceIdeal Cert.ReferenceIdeal.Gen Cert.ReferenceIdeal.Hand Cert.Gcn

/-- The edges' source nodes, from the edge list. -/
abbrev srcOf (e : IVec EdgeList 32) : IVec Edges 32 :=
  endpoints ![0, 0] Facts₀.slices_S2x160000_S1x160000_0_0 Facts₀.shapeCasts_S1x160000_S160000 Facts₀.concatenates_S160000_S10000_S170000_d0 e
/-- The edges' target nodes. -/
abbrev tgtOf (e : IVec EdgeList 32) : IVec Edges 32 :=
  endpoints ![1, 0] Facts₀.slices_S2x160000_S1x160000_1_0 Facts₀.shapeCasts_S1x160000_S160000 Facts₀.concatenates_S160000_S10000_S170000_d0 e
/-- The edge weights. -/
abbrev weightsOf (s t : IVec Edges 32) : FVec Ideal Edges .f32 :=
  edgeWeights (F := Ideal) gather_S10000_S170000x1_S170000_n_0_n_n_0_1_1 scatter_S10000_S170000x1_S170000_n_0_0_1
    Facts₀.bcast_S_S10000 Facts₀.bcast_S_S170000 Facts₀.bcast_S170000_S170000x1_0 s t
/-- The aggregation of 512-wide rows. -/
abbrev agg512 (w : FVec Ideal Edges .f32) (s t : IVec Edges 32) (y : FVec Ideal (NodeRows 512) .f32) : FVec Ideal (NodeRows 512) .f32 :=
  aggregate (F := Ideal) gather_S10000x512_S170000x1_S170000x512_1_0_n_n_0_1_1512 scatter_S10000x512_S170000x1_S170000x512_1_0_0_1
    Facts₀.bcast_S_S10000x512 Facts₀.bcast_S_S170000 Facts₀.bcast_S170000_S170000x1_0 Facts₀.bcast_S170000x1_S170000x512_0_1 w s t y
/-- The aggregation of 256-wide rows. -/
abbrev agg256 (w : FVec Ideal Edges .f32) (s t : IVec Edges 32) (y : FVec Ideal (NodeRows 256) .f32) : FVec Ideal (NodeRows 256) .f32 :=
  aggregate (F := Ideal) gather_S10000x256_S170000x1_S170000x256_1_0_n_n_0_1_1256 scatter_S10000x256_S170000x1_S170000x256_1_0_0_1
    Facts₀.bcast_S_S10000x256 Facts₀.bcast_S_S170000 Facts₀.bcast_S170000_S170000x1_0 Facts₀.bcast_S170000x1_S170000x256_0_1 w s t y

variable (U : Valuation τ sig (Elt Ideal))

/-! ## First read: the index vectors, the first product, the degree -/
set_option maxHeartbeats 8000000 in
theorem r1_src : after (opsC1 (F := Ideal)) (after (opsB (F := Ideal)) (after (opsA (F := Ideal)) U)) (Proc.devRef .tc main_v3)
    = srcOf (U (Proc.devRef .tc main_arg1)) := by
  dsimp only [opsA, opsB, opsC1]
  after_results_simp
  try (rw [reshape_result]; try after_results_simp)
  all_goals rfl

set_option maxHeartbeats 8000000 in
theorem r1_tgt : after (opsC1 (F := Ideal)) (after (opsB (F := Ideal)) (after (opsA (F := Ideal)) U)) (Proc.devRef .tc main_v6)
    = tgtOf (U (Proc.devRef .tc main_arg1)) := by
  dsimp only [opsA, opsB, opsC1]
  after_results_simp
  try (rw [reshape_result]; try after_results_simp)
  all_goals rfl

set_option maxHeartbeats 8000000 in
theorem r1_prod : after (opsC1 (F := Ideal)) (after (opsB (F := Ideal)) (after (opsA (F := Ideal)) U)) (Proc.devRef .tc main_v7)
    = Host.dotGeneral (F := Ideal) (φ₁ := .f32) (φ₂ := .f32) dot_S10000x512_S512x512_S10000x512_1_0_0_1_n_n none (U (Proc.devRef .tc main_arg0)) (U (Proc.devRef .tc main_arg2)) := by
  dsimp only [opsA, opsB, opsC1]
  after_results_simp
  all_goals rfl

set_option maxHeartbeats 8000000 in
theorem r1_pos : after (opsC1 (F := Ideal)) (after (opsB (F := Ideal)) (after (opsA (F := Ideal)) U)) (Proc.devRef .tc main_v13)
    = cmpf .ogt (degree (F := Ideal) scatter_S10000_S170000x1_S170000_n_0_0_1 Facts₀.bcast_S_S10000 Facts₀.bcast_S_S170000 Facts₀.bcast_S170000_S170000x1_0 (tgtOf (U (Proc.devRef .tc main_arg1)))) (broadcastInDim S10000 ![] Facts₀.bcast_S_S10000 (constant (F := Ideal) S_ .f32 0x00000000#32)) := by
  dsimp only [opsA, opsB, opsC1]
  after_results_simp
  try (rw [reshape_result]; try after_results_simp)
  all_goals rfl

set_option maxHeartbeats 8000000 in
theorem r1_rsq : after (opsC1 (F := Ideal)) (after (opsB (F := Ideal)) (after (opsA (F := Ideal)) U)) (Proc.devRef .tc main_v14)
    = Host.rsqrt (degree (F := Ideal) scatter_S10000_S170000x1_S170000_n_0_0_1 Facts₀.bcast_S_S10000 Facts₀.bcast_S_S170000 Facts₀.bcast_S170000_S170000x1_0 (tgtOf (U (Proc.devRef .tc main_arg1)))) := by
  dsimp only [opsA, opsB, opsC1]
  after_results_simp
  try (rw [reshape_result]; try after_results_simp)
  all_goals rfl

set_option maxHeartbeats 8000000 in
theorem r1_zero : after (opsC1 (F := Ideal)) (after (opsB (F := Ideal)) (after (opsA (F := Ideal)) U)) (Proc.devRef .tc main_cst_2)
    = constant (F := Ideal) S_ .f32 0x00000000#32 := by
  dsimp only [opsA, opsB, opsC1]
  after_results_simp
  all_goals rfl

set_option maxHeartbeats 4000000 in
theorem r1_arg3 : after (opsC1 (F := Ideal)) (after (opsB (F := Ideal)) (after (opsA (F := Ideal)) U)) (Proc.devRef .tc main_arg3)
    = U (Proc.devRef .tc main_arg3) := by
  dsimp only [opsA, opsB, opsC1]
  after_results_simp
  all_goals rfl

/-! ## The called function -/
set_option maxHeartbeats 8000000 in
theorem r2_inv : after (opsCc (F := Ideal)) U (Proc.devRef .tc main_v15)
    = select (U (Proc.devRef .tc main_v13)) (U (Proc.devRef .tc main_v14)) (broadcastInDim S10000 ![] Facts₀.bcast_S_S10000 (id (U (Proc.devRef .tc main_cst_2)))) := by
  dsimp only [opsCc]
  after_results_simp
  all_goals rfl

set_option maxHeartbeats 4000000 in
theorem r2_src : after (opsCc (F := Ideal)) U (Proc.devRef .tc main_v3)
    = U (Proc.devRef .tc main_v3) := by
  dsimp only [opsCc]
  after_results_simp
  all_goals rfl

set_option maxHeartbeats 4000000 in
theorem r2_tgt : after (opsCc (F := Ideal)) U (Proc.devRef .tc main_v6)
    = U (Proc.devRef .tc main_v6) := by
  dsimp only [opsCc]
  after_results_simp
  all_goals rfl

set_option maxHeartbeats 4000000 in
theorem r2_prod : after (opsCc (F := Ideal)) U (Proc.devRef .tc main_v7)
    = U (Proc.devRef .tc main_v7) := by
  dsimp only [opsCc]
  after_results_simp
  all_goals rfl

set_option maxHeartbeats 4000000 in
theorem r2_arg3 : after (opsCc (F := Ideal)) U (Proc.devRef .tc main_arg3)
    = U (Proc.devRef .tc main_arg3) := by
  dsimp only [opsCc]
  after_results_simp
  all_goals rfl

/-! ## The edge weights, the first aggregation, the square and the second product -/
set_option maxHeartbeats 16000000 in
theorem r3_prod : after (opsE (F := Ideal)) (after (opsD (F := Ideal)) (after (opsC2 (F := Ideal)) U)) (Proc.devRef .tc main_v45)
    = Host.dotGeneral (F := Ideal) (φ₁ := .f32) (φ₂ := .f32) dot_S10000x512_S512x256_S10000x256_1_0_0_1_n_n none (mulf (agg512 (mulf (F := Ideal) (s := S170000) (φ := .f32) (Host.gather gather_S10000_S170000x1_S170000_n_0_n_n_0_1_1 (U (Proc.devRef .tc main_v15)) (broadcastInDim S170000x1 ![0] Facts₀.bcast_S170000_S170000x1_0 (wrapped Facts₀.bcast_S_S170000 (U (Proc.devRef .tc main_v3))))) (Host.gather gather_S10000_S170000x1_S170000_n_0_n_n_0_1_1 (U (Proc.devRef .tc main_v15)) (broadcastInDim S170000x1 ![0] Facts₀.bcast_S170000_S170000x1_0 (wrapped Facts₀.bcast_S_S170000 (U (Proc.devRef .tc main_v6)))))) (U (Proc.devRef .tc main_v3)) (U (Proc.devRef .tc main_v6)) (U (Proc.devRef .tc main_v7))) (agg512 (mulf (F := Ideal) (s := S170000) (φ := .f32) (Host.gather gather_S10000_S170000x1_S170000_n_0_n_n_0_1_1 (U (Proc.devRef .tc main_v15)) (broadcastInDim S170000x1 ![0] Facts₀.bcast_S170000_S170000x1_0 (wrapped Facts₀.bcast_S_S170000 (U (Proc.devRef .tc main_v3))))) (Host.gather gather_S10000_S170000x1_S170000_n_0_n_n_0_1_1 (U (Proc.devRef .tc main_v15)) (broadcastInDim S170000x1 ![0] Facts₀.bcast_S170000_S170000x1_0 (wrapped Facts₀.bcast_S_S170000 (U (Proc.devRef .tc main_v6)))))) (U (Proc.devRef .tc main_v3)) (U (Proc.devRef .tc main_v6)) (U (Proc.devRef .tc main_v7)))) (U (Proc.devRef .tc main_arg3)) := by
  dsimp only [opsC2, opsD, opsE]
  after_results_simp
  all_goals rfl

set_option maxHeartbeats 4000000 in
theorem r3_src : after (opsE (F := Ideal)) (after (opsD (F := Ideal)) (after (opsC2 (F := Ideal)) U)) (Proc.devRef .tc main_v3)
    = U (Proc.devRef .tc main_v3) := by
  dsimp only [opsC2, opsD, opsE]
  after_results_simp
  all_goals rfl

set_option maxHeartbeats 4000000 in
theorem r3_tgt : after (opsE (F := Ideal)) (after (opsD (F := Ideal)) (after (opsC2 (F := Ideal)) U)) (Proc.devRef .tc main_v6)
    = U (Proc.devRef .tc main_v6) := by
  dsimp only [opsC2, opsD, opsE]
  after_results_simp
  all_goals rfl

/-! ## The degree, a second time -/
set_option maxHeartbeats 8000000 in
theorem r4_pos : after (opsF1 (F := Ideal)) U (Proc.devRef .tc main_v51)
    = cmpf .ogt (degree (F := Ideal) scatter_S10000_S170000x1_S170000_n_0_0_1 Facts₀.bcast_S_S10000 Facts₀.bcast_S_S170000 Facts₀.bcast_S170000_S170000x1_0 (U (Proc.devRef .tc main_v6))) (broadcastInDim S10000 ![] Facts₀.bcast_S_S10000 (constant (F := Ideal) S_ .f32 0x00000000#32)) := by
  dsimp only [opsF1]
  after_results_simp
  all_goals rfl

set_option maxHeartbeats 8000000 in
theorem r4_rsq : after (opsF1 (F := Ideal)) U (Proc.devRef .tc main_v52)
    = Host.rsqrt (degree (F := Ideal) scatter_S10000_S170000x1_S170000_n_0_0_1 Facts₀.bcast_S_S10000 Facts₀.bcast_S_S170000 Facts₀.bcast_S170000_S170000x1_0 (U (Proc.devRef .tc main_v6))) := by
  dsimp only [opsF1]
  after_results_simp
  all_goals rfl

set_option maxHeartbeats 8000000 in
theorem r4_zero : after (opsF1 (F := Ideal)) U (Proc.devRef .tc main_cst_12)
    = constant (F := Ideal) S_ .f32 0x00000000#32 := by
  dsimp only [opsF1]
  after_results_simp
  all_goals rfl

set_option maxHeartbeats 4000000 in
theorem r4_src : after (opsF1 (F := Ideal)) U (Proc.devRef .tc main_v3)
    = U (Proc.devRef .tc main_v3) := by
  dsimp only [opsF1]
  after_results_simp
  all_goals rfl

set_option maxHeartbeats 4000000 in
theorem r4_tgt : after (opsF1 (F := Ideal)) U (Proc.devRef .tc main_v6)
    = U (Proc.devRef .tc main_v6) := by
  dsimp only [opsF1]
  after_results_simp
  all_goals rfl

set_option maxHeartbeats 4000000 in
theorem r4_prod : after (opsF1 (F := Ideal)) U (Proc.devRef .tc main_v45)
    = U (Proc.devRef .tc main_v45) := by
  dsimp only [opsF1]
  after_results_simp
  all_goals rfl

/-! ## The called function, a second time -/
set_option maxHeartbeats 8000000 in
theorem r5_inv : after (opsFc (F := Ideal)) U (Proc.devRef .tc main_v53)
    = select (U (Proc.devRef .tc main_v51)) (U (Proc.devRef .tc main_v52)) (broadcastInDim S10000 ![] Facts₀.bcast_S_S10000 (id (U (Proc.devRef .tc main_cst_12)))) := by
  dsimp only [opsFc]
  after_results_simp
  all_goals rfl

set_option maxHeartbeats 4000000 in
theorem r5_src : after (opsFc (F := Ideal)) U (Proc.devRef .tc main_v3)
    = U (Proc.devRef .tc main_v3) := by
  dsimp only [opsFc]
  after_results_simp
  all_goals rfl

set_option maxHeartbeats 4000000 in
theorem r5_tgt : after (opsFc (F := Ideal)) U (Proc.devRef .tc main_v6)
    = U (Proc.devRef .tc main_v6) := by
  dsimp only [opsFc]
  after_results_simp
  all_goals rfl

set_option maxHeartbeats 4000000 in
theorem r5_prod : after (opsFc (F := Ideal)) U (Proc.devRef .tc main_v45)
    = U (Proc.devRef .tc main_v45) := by
  dsimp only [opsFc]
  after_results_simp
  all_goals rfl

/-! ## The edge weights again and the second aggregation: the result -/
set_option maxHeartbeats 16000000 in
theorem r6_out : after (opsG (F := Ideal)) (after (opsF2 (F := Ideal)) U) (Proc.devRef .tc main_v81)
    = agg256 (mulf (F := Ideal) (s := S170000) (φ := .f32) (Host.gather gather_S10000_S170000x1_S170000_n_0_n_n_0_1_1 (U (Proc.devRef .tc main_v53)) (broadcastInDim S170000x1 ![0] Facts₀.bcast_S170000_S170000x1_0 (wrapped Facts₀.bcast_S_S170000 (U (Proc.devRef .tc main_v3))))) (Host.gather gather_S10000_S170000x1_S170000_n_0_n_n_0_1_1 (U (Proc.devRef .tc main_v53)) (broadcastInDim S170000x1 ![0] Facts₀.bcast_S170000_S170000x1_0 (wrapped Facts₀.bcast_S_S170000 (U (Proc.devRef .tc main_v6)))))) (U (Proc.devRef .tc main_v3)) (U (Proc.devRef .tc main_v6)) (U (Proc.devRef .tc main_v45)) := by
  dsimp only [opsF2, opsG]
  after_results_simp
  all_goals rfl

end Cert.ReferenceIdeal.HostSide

end
-- ==== Proof.RefArgs.lean ====
/-
  No operation of the reference program writes one of its four arguments: after the whole program each argument's buffer
  holds what it held at launch.
-/
import proofs.«172877_j63187558859328_2_alg».proof.Proof.RefRun

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F] (U : Valuation τ sig (Elt F))

set_option maxHeartbeats 32000000 in
theorem ops_arg0 : after (ops (F := F)) U (Proc.devRef .tc main_arg0) = U (Proc.devRef .tc main_arg0) := by
  dsimp only [ops]; after_results_simp
set_option maxHeartbeats 32000000 in
theorem ops_arg1 : after (ops (F := F)) U (Proc.devRef .tc main_arg1) = U (Proc.devRef .tc main_arg1) := by
  dsimp only [ops]; after_results_simp
set_option maxHeartbeats 32000000 in
theorem ops_arg2 : after (ops (F := F)) U (Proc.devRef .tc main_arg2) = U (Proc.devRef .tc main_arg2) := by
  dsimp only [ops]; after_results_simp
set_option maxHeartbeats 32000000 in
theorem ops_arg3 : after (ops (F := F)) U (Proc.devRef .tc main_arg3) = U (Proc.devRef .tc main_arg3) := by
  dsimp only [ops]; after_results_simp

end Cert.ReferenceIdeal.Hand

end
-- ==== Proof.RefValue.lean ====
/-
  The reference program's result as one function of its four argument arrays:

      result = A · ( (A · (x · W1))² · W2 ),

  `A · y` the aggregation of the rows of `y` along the edges with the edge weights (from the edge list alone), the two
  products the host's. The proof walks the program's stretches from the launch contents; the edge weights the program computes
  a second time are the same function of the same index vectors. Each host product is then the product of its factors as a
  sum over the contracted coordinate, and the entrywise multiplication of the hidden layer with itself is its square.
-/
import proofs.«172877_j63187558859328_2_alg».proof.Proof.RefHost
import proofs.«172877_j63187558859328_2_alg».proof.Proof.LibProduct
import proofs.«172877_j63187558859328_2_alg».proof.Proof.RefArgs

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.HostSide Cert.Gcn Cert.LibProduct

/-- The network: two graph layers with an entrywise square between them. -/
def value (e : IVec EdgeList 32) (x : FVec Ideal (NodeRows 512) .f32) (w1 : FVec Ideal ⟨2, ![512, 512]⟩ .f32)
    (w2 : FVec Ideal ⟨2, ![512, 256]⟩ .f32) : FVec Ideal (NodeRows 256) .f32 :=
  agg256 (weightsOf (srcOf e) (tgtOf e)) (srcOf e) (tgtOf e)
    (product (square (agg512 (weightsOf (srcOf e) (tgtOf e)) (srcOf e) (tgtOf e) (product x w1))) w2)

/-- The host's first product is the product of its factors. -/
theorem prod1_eq (x : FVec Ideal S10000x512 .f32) (w : FVec Ideal S512x512 .f32) :
    Host.dotGeneral (F := Ideal) dot_S10000x512_S512x512_S10000x512_1_0_0_1_n_n none x w = product x w :=
  dotGeneral_eq Facts₀.dot_S10000x512_S512x512_S10000x512_1_0_0_1_n_n_wf none .single x w

/-- The host's second product is the product of its factors. -/
theorem prod2_eq (x : FVec Ideal S10000x512 .f32) (w : FVec Ideal S512x256 .f32) :
    Host.dotGeneral (F := Ideal) dot_S10000x512_S512x256_S10000x256_1_0_0_1_n_n none x w = product x w :=
  dotGeneral_eq Facts₀.dot_S10000x512_S512x256_S10000x256_1_0_0_1_n_n_wf none .single x w

variable (m : (ℓ : Loc nD τ sig) → Buf (Elt Ideal) ℓ)

/-- The result buffer after the whole program is the network of the launch arrays. -/
theorem result (c : Dev nD) :
    after (ops (F := Ideal)) (launchContents m c) (Proc.devRef .tc main_v81) = value (m ((c.tc : Thread nD τ).loc main_arg1)) (m ((c.tc : Thread nD τ).loc main_arg0)) (m ((c.tc : Thread nD τ).loc main_arg2)) (m ((c.tc : Thread nD τ).loc main_arg3)) := by
  rw [after_split]
  -- after the first read
  have s1 : (after (opsC1 (F := Ideal)) (after (opsB (F := Ideal)) (after (opsA (F := Ideal)) (launchContents m c)))) (Proc.devRef .tc main_v3) = (srcOf (m ((c.tc : Thread nD τ).loc main_arg1))) := r1_src (launchContents m c)
  have t1 : (after (opsC1 (F := Ideal)) (after (opsB (F := Ideal)) (after (opsA (F := Ideal)) (launchContents m c)))) (Proc.devRef .tc main_v6) = (tgtOf (m ((c.tc : Thread nD τ).loc main_arg1))) := r1_tgt (launchContents m c)
  have q1 : (after (opsC1 (F := Ideal)) (after (opsB (F := Ideal)) (after (opsA (F := Ideal)) (launchContents m c)))) (Proc.devRef .tc main_v7) = (Host.dotGeneral (F := Ideal) (φ₁ := .f32) (φ₂ := .f32) dot_S10000x512_S512x512_S10000x512_1_0_0_1_n_n none (m ((c.tc : Thread nD τ).loc main_arg0)) (m ((c.tc : Thread nD τ).loc main_arg2))) := r1_prod (launchContents m c)
  have pos1 : (after (opsC1 (F := Ideal)) (after (opsB (F := Ideal)) (after (opsA (F := Ideal)) (launchContents m c)))) (Proc.devRef .tc main_v13) = cmpf .ogt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) (broadcastInDim S10000 ![] Facts₀.bcast_S_S10000 (constant (F := Ideal) S_ .f32 0x00000000#32)) := r1_pos (launchContents m c)
  have rsq1 : (after (opsC1 (F := Ideal)) (after (opsB (F := Ideal)) (after (opsA (F := Ideal)) (launchContents m c)))) (Proc.devRef .tc main_v14) = Host.rsqrt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) := r1_rsq (launchContents m c)
  have z1 : (after (opsC1 (F := Ideal)) (after (opsB (F := Ideal)) (after (opsA (F := Ideal)) (launchContents m c)))) (Proc.devRef .tc main_cst_2) = constant (F := Ideal) S_ .f32 0x00000000#32 := r1_zero (launchContents m c)
  have a1 : (after (opsC1 (F := Ideal)) (after (opsB (F := Ideal)) (after (opsA (F := Ideal)) (launchContents m c)))) (Proc.devRef .tc main_arg3) = (m ((c.tc : Thread nD τ).loc main_arg3)) := r1_arg3 (launchContents m c)
  -- after the called function
  have i2 : (after (opsCc (F := Ideal)) (after (opsC1 (F := Ideal)) (after (opsB (F := Ideal)) (after (opsA (F := Ideal)) (launchContents m c))))) (Proc.devRef .tc main_v15) = (invSqrtDegree (F := Ideal) Facts₀.bcast_S_S10000 (degree (F := Ideal) scatter_S10000_S170000x1_S170000_n_0_0_1 Facts₀.bcast_S_S10000 Facts₀.bcast_S_S170000 Facts₀.bcast_S170000_S170000x1_0 (tgtOf (m ((c.tc : Thread nD τ).loc main_arg1))))) := by
    refine (r2_inv (after (opsC1 (F := Ideal)) (after (opsB (F := Ideal)) (after (opsA (F := Ideal)) (launchContents m c))))).trans ?_
    rw [pos1, rsq1, z1]
    rfl
  have s2 : (after (opsCc (F := Ideal)) (after (opsC1 (F := Ideal)) (after (opsB (F := Ideal)) (after (opsA (F := Ideal)) (launchContents m c))))) (Proc.devRef .tc main_v3) = (srcOf (m ((c.tc : Thread nD τ).loc main_arg1))) := (r2_src (after (opsC1 (F := Ideal)) (after (opsB (F := Ideal)) (after (opsA (F := Ideal)) (launchContents m c))))).trans s1
  have t2 : (after (opsCc (F := Ideal)) (after (opsC1 (F := Ideal)) (after (opsB (F := Ideal)) (after (opsA (F := Ideal)) (launchContents m c))))) (Proc.devRef .tc main_v6) = (tgtOf (m ((c.tc : Thread nD τ).loc main_arg1))) := (r2_tgt (after (opsC1 (F := Ideal)) (after (opsB (F := Ideal)) (after (opsA (F := Ideal)) (launchContents m c))))).trans t1
  have q2 : (after (opsCc (F := Ideal)) (after (opsC1 (F := Ideal)) (after (opsB (F := Ideal)) (after (opsA (F := Ideal)) (launchContents m c))))) (Proc.devRef .tc main_v7) = (Host.dotGeneral (F := Ideal) (φ₁ := .f32) (φ₂ := .f32) dot_S10000x512_S512x512_S10000x512_1_0_0_1_n_n none (m ((c.tc : Thread nD τ).loc main_arg0)) (m ((c.tc : Thread nD τ).loc main_arg2))) := (r2_prod (after (opsC1 (F := Ideal)) (after (opsB (F := Ideal)) (after (opsA (F := Ideal)) (launchContents m c))))).trans q1
  have a2 : (after (opsCc (F := Ideal)) (after (opsC1 (F := Ideal)) (after (opsB (F := Ideal)) (after (opsA (F := Ideal)) (launchContents m c))))) (Proc.devRef .tc main_arg3) = (m ((c.tc : Thread nD τ).loc main_arg3)) := (r2_arg3 (after (opsC1 (F := Ideal)) (after (opsB (F := Ideal)) (after (opsA (F := Ideal)) (launchContents m c))))).trans a1
  -- the second product, of the first aggregation squared
  have p3 : (after (opsE (F := Ideal)) (after (opsD (F := Ideal)) (after (opsC2 (F := Ideal)) (after (opsCc (F := Ideal)) (after (opsC1 (F := Ideal)) (after (opsB (F := Ideal)) (after (opsA (F := Ideal)) (launchContents m c)))))))) (Proc.devRef .tc main_v45) = (Host.dotGeneral (F := Ideal) (φ₁ := .f32) (φ₂ := .f32) dot_S10000x512_S512x256_S10000x256_1_0_0_1_n_n none (mulf (F := Ideal) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2)))) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2))))) (m ((c.tc : Thread nD τ).loc main_arg3))) := by
    refine (r3_prod (after (opsCc (F := Ideal)) (after (opsC1 (F := Ideal)) (after (opsB (F := Ideal)) (after (opsA (F := Ideal)) (launchContents m c)))))).trans ?_
    rw [i2, s2, t2, q2, a2]
    rfl
  have s3 : (after (opsE (F := Ideal)) (after (opsD (F := Ideal)) (after (opsC2 (F := Ideal)) (after (opsCc (F := Ideal)) (after (opsC1 (F := Ideal)) (after (opsB (F := Ideal)) (after (opsA (F := Ideal)) (launchContents m c)))))))) (Proc.devRef .tc main_v3) = (srcOf (m ((c.tc : Thread nD τ).loc main_arg1))) := (r3_src (after (opsCc (F := Ideal)) (after (opsC1 (F := Ideal)) (after (opsB (F := Ideal)) (after (opsA (F := Ideal)) (launchContents m c)))))).trans s2
  have t3 : (after (opsE (F := Ideal)) (after (opsD (F := Ideal)) (after (opsC2 (F := Ideal)) (after (opsCc (F := Ideal)) (after (opsC1 (F := Ideal)) (after (opsB (F := Ideal)) (after (opsA (F := Ideal)) (launchContents m c)))))))) (Proc.devRef .tc main_v6) = (tgtOf (m ((c.tc : Thread nD τ).loc main_arg1))) := (r3_tgt (after (opsCc (F := Ideal)) (after (opsC1 (F := Ideal)) (after (opsB (F := Ideal)) (after (opsA (F := Ideal)) (launchContents m c)))))).trans t2
  -- the degree again
  have pos4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_v51) = cmpf .ogt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) (broadcastInDim S10000 ![] Facts₀.bcast_S_S10000 (constant (F := Ideal) S_ .f32 0x00000000#32)) := by
    refine (r4_pos (after (opsE (F := Ideal)) (after (opsD (F := Ideal)) (after (opsC2 (F := Ideal)) (after (opsCc (F := Ideal)) (after (opsC1 (F := Ideal)) (after (opsB (F := Ideal)) (after (opsA (F := Ideal)) (launchContents m c))))))))).trans ?_
    rw [t3]
  have rsq4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_v52) = Host.rsqrt (degree (F := Ideal) scatter_S10000_S170000x1_S170000_n_0_0_1 Facts₀.bcast_S_S10000 Facts₀.bcast_S_S170000 Facts₀.bcast_S170000_S170000x1_0 (tgtOf (m ((c.tc : Thread nD τ).loc main_arg1)))) := by
    refine (r4_rsq (after (opsE (F := Ideal)) (after (opsD (F := Ideal)) (after (opsC2 (F := Ideal)) (after (opsCc (F := Ideal)) (after (opsC1 (F := Ideal)) (after (opsB (F := Ideal)) (after (opsA (F := Ideal)) (launchContents m c))))))))).trans ?_
    rw [t3]
  have z4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_cst_12) = constant (F := Ideal) S_ .f32 0x00000000#32 := r4_zero (after (opsE (F := Ideal)) (after (opsD (F := Ideal)) (after (opsC2 (F := Ideal)) (after (opsCc (F := Ideal)) (after (opsC1 (F := Ideal)) (after (opsB (F := Ideal)) (after (opsA (F := Ideal)) (launchContents m c))))))))
  have s4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_v3) = (srcOf (m ((c.tc : Thread nD τ).loc main_arg1))) := (r4_src (after (opsE (F := Ideal)) (after (opsD (F := Ideal)) (after (opsC2 (F := Ideal)) (after (opsCc (F := Ideal)) (after (opsC1 (F := Ideal)) (after (opsB (F := Ideal)) (after (opsA (F := Ideal)) (launchContents m c))))))))).trans s3
  have t4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_v6) = (tgtOf (m ((c.tc : Thread nD τ).loc main_arg1))) := (r4_tgt (after (opsE (F := Ideal)) (after (opsD (F := Ideal)) (after (opsC2 (F := Ideal)) (after (opsCc (F := Ideal)) (after (opsC1 (F := Ideal)) (after (opsB (F := Ideal)) (after (opsA (F := Ideal)) (launchContents m c))))))))).trans t3
  have p4 : (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))) (Proc.devRef .tc main_v45) = (Host.dotGeneral (F := Ideal) (φ₁ := .f32) (φ₂ := .f32) dot_S10000x512_S512x256_S10000x256_1_0_0_1_n_n none (mulf (F := Ideal) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2)))) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2))))) (m ((c.tc : Thread nD τ).loc main_arg3))) := (r4_prod (after (opsE (F := Ideal)) (after (opsD (F := Ideal)) (after (opsC2 (F := Ideal)) (after (opsCc (F := Ideal)) (after (opsC1 (F := Ideal)) (after (opsB (F := Ideal)) (after (opsA (F := Ideal)) (launchContents m c))))))))).trans p3
  -- the called function again
  have i5 : (after (opsFc (F := Ideal)) (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))) (Proc.devRef .tc main_v53) = (invSqrtDegree (F := Ideal) Facts₀.bcast_S_S10000 (degree (F := Ideal) scatter_S10000_S170000x1_S170000_n_0_0_1 Facts₀.bcast_S_S10000 Facts₀.bcast_S_S170000 Facts₀.bcast_S170000_S170000x1_0 (tgtOf (m ((c.tc : Thread nD τ).loc main_arg1))))) := by
    refine (r5_inv (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))).trans ?_
    rw [pos4, rsq4, z4]
    rfl
  have s5 : (after (opsFc (F := Ideal)) (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))) (Proc.devRef .tc main_v3) = (srcOf (m ((c.tc : Thread nD τ).loc main_arg1))) := (r5_src (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))).trans s4
  have t5 : (after (opsFc (F := Ideal)) (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))) (Proc.devRef .tc main_v6) = (tgtOf (m ((c.tc : Thread nD τ).loc main_arg1))) := (r5_tgt (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))).trans t4
  have p5 : (after (opsFc (F := Ideal)) (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))) (Proc.devRef .tc main_v45) = (Host.dotGeneral (F := Ideal) (φ₁ := .f32) (φ₂ := .f32) dot_S10000x512_S512x256_S10000x256_1_0_0_1_n_n none (mulf (F := Ideal) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2)))) (agg512 (weightsOf (srcOf (m ((c.tc : Thread nD τ).loc main_arg1))) (tgtOf (m ((c.tc : Thread nD τ).loc main_arg1)))) (srcOf (m ((c.tc : Thread nD τ).loc main_arg1))) (tgtOf (m ((c.tc : Thread nD τ).loc main_arg1))) (Host.dotGeneral (F := Ideal) (φ₁ := .f32) (φ₂ := .f32) dot_S10000x512_S512x512_S10000x512_1_0_0_1_n_n none (m ((c.tc : Thread nD τ).loc main_arg0)) (m ((c.tc : Thread nD τ).loc main_arg2))))) (m ((c.tc : Thread nD τ).loc main_arg3))) := (r5_prod (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c)))))))))).trans p4
  -- the second aggregation
  refine (r6_out (after (opsFc (F := Ideal)) (after (opsF1 (F := Ideal)) (after (opsE (F := Ideal)) (after (opsD (F := Ideal)) (after (opsC2 (F := Ideal)) (after (opsCc (F := Ideal)) (after (opsC1 (F := Ideal)) (after (opsB (F := Ideal)) (after (opsA (F := Ideal)) (launchContents m c))))))))))).trans ?_
  rw [i5, s5, t5, p5, prod2_eq, prod1_eq]
  rfl

/-- The reference program's run, read: the result at the network of the launch arrays, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v81) = value (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c main_v81).trans (result m c),
      (h c main_arg0).trans (ops_arg0 (launchContents m c)),
      (h c main_arg1).trans (ops_arg1 (launchContents m c)),
      (h c main_arg2).trans (ops_arg2 (launchContents m c)),
      (h c main_arg3).trans (ops_arg3 (launchContents m c))⟩)
    (run_raw (F := Ideal) m ρ)

end Cert.ReferenceIdeal.Hand

end
-- ==== Proof.lean ====
/-
  The certificate of a two-layer graph convolution network.

  The network is  out = A · ( (A · (x · W1))² · W2 )  over 10000 nodes and 160000 listed edges (every node also joined to
  itself):  A · y  gathers the rows of y at the edges' source nodes, scales each by the edge's weight
  `deg(source)^{-1/2} · deg(target)^{-1/2}` (zero where a degree is not positive) and adds them up at the edges' target nodes.

  The kernel program computes the two products on the matrix unit, ten row blocks of 1000 rows at a time, rounding both
  factors to a shorter float format on the way in and squaring the hidden layer inside the second body; the reference
  computes them by the host's product and squares the hidden layer by a host multiplication. Everything else — the index
  vectors, the degrees, the edge weights, the gathers and scatter-adds — is the same operations applied to the same operands
  in both programs, and is never opened.

  At the ideal instance (floats are extended reals, every operation exact, a change of format the identity) both
  products are the same finite sum over the contracted coordinate, `Σ_e x(i, e) · w(e, j)`: a row block of the product depends
  only on the same rows of the left factor, so the ten blocks the kernel writes are the rows of the whole product and
  cover it. Only regrouping of a finite sum is used, which holds on the extended reals without any finiteness, so the
  precondition (finite inputs) is not opened. The idealization's ledger is empty, so `preserves` is trivially true.

  The three frames: the two kernel programs' are the generated ones; the reference has no kernel, and its frame is its run
  with the result dropped.
-/
import proofs.«172877_j63187558859328_2_alg».proof.Defs
import proofs.«172877_j63187558859328_2_alg».proof.Proof.Gen.Kernel
import proofs.«172877_j63187558859328_2_alg».proof.Proof.Gen.Kernel.Skeleton
import proofs.«172877_j63187558859328_2_alg».proof.Proof.Gen.Kernel.Launch
import proofs.«172877_j63187558859328_2_alg».proof.Proof.Gen.Kernel.Points
import proofs.«172877_j63187558859328_2_alg».proof.Proof.Gen.Kernel.Frame
import proofs.«172877_j63187558859328_2_alg».proof.Proof.Gen.KernelIdeal
import proofs.«172877_j63187558859328_2_alg».proof.Proof.Gen.KernelIdeal.Skeleton
import proofs.«172877_j63187558859328_2_alg».proof.Proof.Gen.KernelIdeal.Launch
import proofs.«172877_j63187558859328_2_alg».proof.Proof.Gen.KernelIdeal.Points
import proofs.«172877_j63187558859328_2_alg».proof.Proof.Gen.KernelIdeal.Frame
import proofs.«172877_j63187558859328_2_alg».proof.Proof.Gen.ReferenceIdeal
import proofs.«172877_j63187558859328_2_alg».proof.Proof.Gen.Pre_finite_inputs
import Idealize.ShloMosaic.Adequacy
import Idealize.ShloMosaic.Init
import proofs.«172877_j63187558859328_2_alg».proof.Proof.KernelValue
import proofs.«172877_j63187558859328_2_alg».proof.Proof.RefValue

noncomputable section

namespace Cert.Proof

open Idealize.ShloMosaic Idealize.SL.Sem

/-- The two programs' networks are one function: each is the same composition of the layer's functions, over dimension
    records that list the same axes and facts about the same shapes. -/
theorem network_eq (e : IVec Cert.Gcn.EdgeList 32) (x : FVec Ideal (Cert.Gcn.NodeRows 512) .f32)
    (w1 : FVec Ideal ⟨2, ![512, 512]⟩ .f32) (w2 : FVec Ideal ⟨2, ![512, 256]⟩ .f32) :
    Cert.ReferenceIdeal.Hand.value e x w1 w2 = Cert.KernelIdeal.Hand.value e x w1 w2 := rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both idealized programs, from memories agreeing on the arguments, end with the network of those arguments in their
    result buffers. -/
theorem algebraic : Cert.algebraic_KernelIdeal_ReferenceIdeal := by
  intro m ρ m' ρ' _ hagree
  refine ⟨fun c => Cert.KernelIdeal.Hand.value
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun r h c => ⟨(h c).1.trans ?_, (h c).2⟩)
    (Cert.ReferenceIdeal.Hand.run m' ρ')
  rw [(hagree c).1, (hagree c).2.1, (hagree c).2.2.1, (hagree c).2.2.2]
  exact network_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
